-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S4 : Shape := ⟨1, ![4]⟩
abbrev S256x1024 : Shape := ⟨2, ![256, 1024]⟩
abbrev S1024 : Shape := ⟨1, ![1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S4 : S_.BroadcastsInDim S4 (![] : Fin 0 → Fin S4.rank)
  reducesTo_S4_S_d0 : S4.ReducesTo [0] S_

variable [Facts]

def fn_part1 {F : FTy → Type} [FloatOps F] (main_arg1 : IVec S4 32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_c_6 : IVec S_ 32 := constantI S_ 32 0#32
  let main_v19 : IVec S4 32 := broadcastInDim S4 ![] bcast_S_S4 main_c_6
  let main_v20 : IVec S4 1 := cmpi .sge main_arg1 main_v19
  let main_c_7 : IVec S_ 32 := constantI S_ 32 256#32
  let main_v21 : IVec S4 32 := broadcastInDim S4 ![] bcast_S_S4 main_c_7
  let main_v22 : IVec S4 1 := cmpi .slt main_arg1 main_v21
  let main_v23 : IVec S4 1 := andi main_v20 main_v22
  let main_c_8 : IVec S_ 1 := constantI S_ 1 1#1
  let main_v24 : IVec S_ 1 := (fun x v => Host.reduce IntOp.andi x v reducesTo_S4_S_d0 h_S_) main_v23 main_c_8
  let main_v25 : IVec S_ 1 := andi main_v18 main_v24
  main_v25

def fn {F : FTy → Type} [FloatOps F] (main_arg0 : FVec F S4x8192x1024 .f32) (main_arg1 : IVec S4 32) (main_arg2 : FVec F S256x1024 .f32) (main_arg3 : FVec F S1024 .f32) (main_arg4 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S256x1024 .f32 := Host.absf main_arg2
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg1 main_v13 main_v16
-- ==== Kernel.lean ====
abbrev S4x8192x1024 : Shape := ⟨3, ![4, 8192, 1024]⟩
abbrev S4 : Shape := ⟨1, ![4]⟩
abbrev S256x1024 : Shape := ⟨2, ![256, 1024]⟩
abbrev S1024 : Shape := ⟨1, ![1024]⟩
abbrev S1x1024 : Shape := ⟨2, ![1, 1024]⟩
abbrev S256x1x1024 : Shape := ⟨3, ![256, 1, 1024]⟩
abbrev S1x4096x1024 : Shape := ⟨3, ![1, 4096, 1024]⟩
abbrev S1x1x1024 : Shape := ⟨3, ![1, 1, 1024]⟩
abbrev S1 : Shape := ⟨1, ![1]⟩
abbrev S1x2048x1024 : Shape := ⟨3, ![1, 2048, 1024]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 8
  | .vmem => 8
  | .smem => 1
  | _ => 0

abbrev bufTy : (tb : Table) → Fin (tcTables nBuf tb) → BufTy
  | .hbm, ⟨0, _⟩ => ⟨S4x8192x1024, .f32⟩
  | .hbm, ⟨1, _⟩ => ⟨S256x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S256x1x1024, .f32⟩
  | .hbm, ⟨7, _⟩ => ⟨S4x8192x1024, .f32⟩
  | .local _ .vmem, ⟨0, _⟩ => ⟨S1x4096x1024, .f32⟩
  | .local _ .vmem, ⟨1, _⟩ => ⟨S1x4096x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024, .f32⟩
  | .local _ .vmem, ⟨5, _⟩ => ⟨S1x1024, .f32⟩
  | .local _ .vmem, ⟨6, _⟩ => ⟨S1x2048x1024, .f32⟩
  | .local _ .vmem, ⟨7, _⟩ => ⟨S1x2048x1024, .f32⟩
  | .local _ .smem, ⟨0, _⟩ => ⟨S4, .i32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 3 → Nat :=
  let c0 : Index := 0#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2048_i32 : BitVec 32 := 2048#32
  let v10 : BitVec 32 := Scalar.muli v9 c2048_i32
  let v11 : Index := Scalar.indexCast v10
  let c0_3 : Index := 0#32
  ![0, v11.toNat, 0]
def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S1024_S1x1024 : S1024.ShapeCasts S1x1024
  shapeCasts_S256x1024_S256x1x1024 : S256x1024.ShapeCasts S256x1x1024
  numel1_S1 : S1.numel = 1
  h_S1x2048x1024 : 0 < S1x2048x1024.numel
  shapeCasts_S1x2048x1024_S2048x1024 : S1x2048x1024.ShapeCasts S2048x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S2048x1024 : S1x1024.Broadcasts S2048x1024
  reduces_S2048x1024_S2048 : S2048x1024.Reduces [1] S2048
  shapeCasts_S2048_S2048x1 : S2048.ShapeCasts S2048x1
  broadcasts_S2048x1_S2048x1024 : S2048x1.Broadcasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x2048x1024_S1x2048x1024_0_0_0 : ∀ a, (![0, 0, 0] : Fin 3 → Nat) a + S1x2048x1024.size a ≤ S1x2048x1024.size a
  shapeCasts_S2048x1024_S1x2048x1024 : S2048x1024.ShapeCasts S1x2048x1024
  hrank0 : 0 < grid0.rank
  k0_off1_inb : ∀ i : grid0.Coords, ∀ a, (k0_off1 i) a + S1.size a ≤ S4.size a
  k0_off2_inb : ∀ i : grid0.Coords, ∀ a, (k0_off2 i) a + S1x2048x1024.size a ≤ S1x4096x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x1024.size a ≤ S4x8192x1024.size a
  hwx0_0 : ∀ i : grid0.Coords, EltTy.bits .f32 = 32 ∨ (Rect.block (s := S4x8192x1024) S1x4096x1024.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x1024.size a ≤ S4x8192x1024.size a
  hwx0_4 : ∀ i : grid0.Coords, EltTy.bits .f32 = 32 ∨ (Rect.block (s := S4x8192x1024) S1x2048x1024.size (cc0_transform_4 i) (hinb0_4 i)).WholeWords (EltTy.packing .f32)

variable [Facts₀]

abbrev spec0_0 : Pipeline.WinSpec sig grid0.rank :=
  Pipeline.WinSpec.ofSpec (Memref.whole main_arg0) S1x4096x1024.size reads0_0 false false 2 stage0_0 sem0_0 nbuf0_0 hstage0_0

abbrev spec0_1 : Pipeline.WinSpec sig grid0.rank :=
  Pipeline.WinSpec.ofSpec (Memref.whole main_v2) S1x1x1024.size reads0_1 false false 2 stage0_1 sem0_1 nbuf0_1 hstage0_1

abbrev spec0_2 : Pipeline.WinSpec sig grid0.rank :=
  Pipeline.WinSpec.ofSpec (Memref.whole main_v0) S1x1024.size reads0_2 false true 1 stage0_2 sem0_2 nbuf0_2 hstage0_2

abbrev spec0_3 : Pipeline.WinSpec sig grid0.rank :=
  Pipeline.WinSpec.ofSpec (Memref.whole main_v1) S1x1024.size reads0_3 false true 1 stage0_3 sem0_3 nbuf0_3 hstage0_3

abbrev spec0_4 : Pipeline.WinSpec sig grid0.rank :=
  Pipeline.WinSpec.ofSpec (Memref.whole main_v3) S1x2048x1024.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 k0_off1_inb numel1_S1 pf | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | 3 => hreads0_3 | 4 => hreads0_4 | ⟨_ + 5, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1x1024.size a ≤ S256x1x1024.size a), EltTy.bits .f32 = 32 ∨ (Rect.block (s := S256x1x1024) S1x1x1024.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | 3 => hwx0_3 | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S4x8192x1024 : Shape := ⟨3, ![4, 8192, 1024]⟩
abbrev S4 : Shape := ⟨1, ![4]⟩
abbrev S256x1024 : Shape := ⟨2, ![256, 1024]⟩
abbrev S1024 : Shape := ⟨1, ![1024]⟩
abbrev S_ : Shape := ⟨0, ![]⟩
abbrev S4x1 : Shape := ⟨2, ![4, 1]⟩
abbrev S1 : Shape := ⟨1, ![1]⟩
abbrev S1x1 : Shape := ⟨2, ![1, 1]⟩
abbrev S4x1024 : Shape := ⟨2, ![4, 1024]⟩
abbrev S4x1x1024 : Shape := ⟨3, ![4, 1, 1024]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4, .i32⟩
  | .hbm, ⟨2, _⟩ => ⟨S256x1024, .f32⟩
  | .hbm, ⟨3, _⟩ => ⟨S1024, .f32⟩
  | .hbm, ⟨4, _⟩ => ⟨S1024, .f32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S1, .i32⟩
  | .hbm, ⟨14, _⟩ => ⟨S_, .i32⟩
  | .hbm, ⟨15, _⟩ => ⟨S4x1, .i32⟩
  | .hbm, ⟨16, _⟩ => ⟨S4x1, .i1⟩
  | .hbm, ⟨17, _⟩ => ⟨S1x1, .i32⟩
  | .hbm, ⟨18, _⟩ => ⟨S4x1, .i32⟩
  | .hbm, ⟨19, _⟩ => ⟨S4x1, .i1⟩
  | .hbm, ⟨20, _⟩ => ⟨S4x1, .i1⟩
  | .hbm, ⟨21, _⟩ => ⟨S_, .i1⟩
  | .hbm, ⟨22, _⟩ => ⟨S4, .i1⟩
  | .hbm, ⟨23, _⟩ => ⟨S4x1024, .f32⟩
  | .hbm, ⟨24, _⟩ => ⟨S4x1024, .i1⟩
  | .hbm, ⟨25, _⟩ => ⟨S_, .f32⟩
  | .hbm, ⟨26, _⟩ => ⟨S4x1024, .f32⟩
  | .hbm, ⟨27, _⟩ => ⟨S4x1024, .f32⟩
  | .hbm, ⟨28, _⟩ => ⟨S4x1x1024, .f32⟩
  | .hbm, ⟨29, _⟩ => ⟨S4x8192x1024, .f32⟩
  | .hbm, ⟨30, _⟩ => ⟨S4x8192x1024, .f32⟩
  | .hbm, ⟨31, _⟩ => ⟨S_, .f32⟩
  | .hbm, ⟨32, _⟩ => ⟨S4x8192, .f32⟩
  | .hbm, ⟨33, _⟩ => ⟨S4x8192x1, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S_, .f32⟩
  | .hbm, ⟨41, _⟩ => ⟨S4x8192, .f32⟩
  | .hbm, ⟨42, _⟩ => ⟨S4x8192x1, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S4x8192x1024, .f32⟩
  | .hbm, ⟨47, _⟩ => ⟨S4x8192x1024, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x8192x1, .f32⟩
  | .hbm, ⟨52, _⟩ => ⟨S4x8192x1024, .f32⟩
  | .hbm, ⟨53, _⟩ => ⟨S4x8192x1024, .f32⟩
  | .hbm, ⟨54, _⟩ => ⟨S1x1x1024, .f32⟩
  | .hbm, ⟨55, _⟩ => ⟨S4x8192x1024, .f32⟩
  | .hbm, ⟨56, _⟩ => ⟨S4x8192x1024, .f32⟩
  | .hbm, ⟨57, _⟩ => ⟨S1x1x1024, .f32⟩
  | .hbm, ⟨58, _⟩ => ⟨S4x8192x1024, .f32⟩
  | .hbm, ⟨59, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst : Ref sig .tc := ⟨.hbm, 31, rfl⟩
abbrev main_v4 : Ref sig .tc := ⟨.hbm, 32, rfl⟩
abbrev main_v5 : Ref sig .tc := ⟨.hbm, 33, rfl⟩
abbrev main_cst_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst_1 : Ref sig .tc := ⟨.hbm, 40, rfl⟩
abbrev main_v11 : Ref sig .tc := ⟨.hbm, 41, rfl⟩
abbrev main_v12 : Ref sig .tc := ⟨.hbm, 42, rfl⟩
abbrev main_cst_2 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_3 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩

abbrev nD : Nat := 1
abbrev τ : Topo := Topo.v7x

variable {F : FTy → Type} [FloatOps F]

class Facts₀ : Prop where
  bcast_S_S4 : S_.BroadcastsInDim S4 (![] : Fin 0 → Fin S4.rank)
  bcast_S4_S4x1_0 : S4.BroadcastsInDim S4x1 (![0] : Fin 1 → Fin S4x1.rank)
  bcast_S_S4x1 : S_.BroadcastsInDim S4x1 (![] : Fin 0 → Fin S4x1.rank)
  bcast_S1_S1x1_1 : S1.BroadcastsInDim S1x1 (![1] : Fin 1 → Fin S1x1.rank)
  bcast_S1x1_S4x1_0_1 : S1x1.BroadcastsInDim S4x1 (![0, 1] : Fin 2 → Fin S4x1.rank)
  reducesTo_S4x1_S4_d1 : S4x1.ReducesTo [1] S4
  h_S_ : 0 < S_.numel
  bcast_S4_S4x1024_0 : S4.BroadcastsInDim S4x1024 (![0] : Fin 1 → Fin S4x1024.rank)
  bcast_S_S4x1024 : S_.BroadcastsInDim S4x1024 (![] : Fin 0 → Fin S4x1024.rank)
  bcast_S4x1024_S4x1x1024_0_2 : S4x1024.BroadcastsInDim S4x1x1024 (![0, 2] : Fin 2 → Fin S4x1x1024.rank)
  bcast_S4x1x1024_S4x8192x1024_0_1_2 : S4x1x1024.BroadcastsInDim S4x8192x1024 (![0, 1, 2] : Fin 3 → Fin S4x8192x1024.rank)
  reducesTo_S4x8192x1024_S4x8192_d2 : S4x8192x1024.ReducesTo [2] S4x8192
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x1024_0_1_2 : S4x8192x1.BroadcastsInDim S4x8192x1024 (![0, 1, 2] : Fin 3 → Fin S4x8192x1024.rank)
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  gather_S256x1024_S4x1_S4x1024_1_0_n_n_0_1_11024_wf : GatherDims.WF S256x1024 S4x1 S4x1024 [1] [0] [] [0] [] 1 ![1, 1024]

variable [Facts₀]

def gather_S256x1024_S4x1_S4x1024_1_0_n_n_0_1_11024 : GatherDims S256x1024 S4x1 S4x1024 where
  offsetDims := [1]
  collapsedSliceDims := [0]
  operandBatchingDims := []
  startIndicesBatchingDims := []
  startIndexMap := [0]
  indexVectorDim := 1
  sliceSizes := ![1, 1024]
  wf := gather_S256x1024_S4x1_S4x1024_1_0_n_n_0_1_11024_wf

class Facts : Prop extends Facts₀ where

variable [Facts]
-- ==== Proof.Spec.lean ====
/-
  Layer normalisation of one row, in the two arrangements the programs use, and the whole-array function.

  A row is 1024 extended reals x.  Its mean is (sum of x) / 1024.  One arrangement takes the variance as
  mean(x * x) - mean(x) * mean(x) and multiplies the centred entry by the reciprocal square root of
  variance + eps; the other takes the variance as the mean of the squared centred entries and divides the
  centred entry by the square root of variance + eps.  Both then scale by gamma and shift by beta.
  The row of the array at (b, s) is features(b, s, .) + table(id_b, .), the table row chosen by the b-th id word.
-/
import Idealize.ShloMosaic.PureOps.Ideal
import Idealize.ShloMosaic.Lib.ValueIdx

noncomputable section

namespace Cert.LayerNorm

open Idealize.ShloMosaic Idealize.ShloMosaic.ValueIdx

abbrev SFeat : Shape := ⟨3, ![4, 8192, 1024]⟩
abbrev SIds : Shape := ⟨1, ![4]⟩
abbrev STable : Shape := ⟨2, ![256, 1024]⟩
abbrev SVec : Shape := ⟨1, ![1024]⟩

/-- The row length 1024 and the epsilon, as the f32 words both programs carry. -/
def c1024 : EReal := Ideal.ofBits .f32 0x44800000#32
def eps : EReal := Ideal.ofBits .f32 0x3727C5AC#32

/-- The mean of a row. -/
def mean (x : Fin 1024 → EReal) : EReal := Ideal.div (∑ k, x k) c1024

/-- Variance as mean of squares minus squared mean; centred entry times the reciprocal square root. -/
def rowK (x γ β : Fin 1024 → EReal) (d : Fin 1024) : EReal :=
  ((x d - mean x) * Ideal.rsqrt ((Ideal.div (∑ k, x k * x k) c1024 - mean x * mean x) + eps)) * γ d + β d

/-- Variance as mean of squared centred entries; centred entry divided by the square root. -/
def rowR (x γ β : Fin 1024 → EReal) (d : Fin 1024) : EReal :=
  Ideal.div (x d - mean x) (Ideal.sqrt (Ideal.div (∑ k, (x k - mean x) * (x k - mean x)) c1024 + eps)) * γ d + β d

/-- The table row an id word selects: the word read unsigned, modulo 256 (below 256 it is the word). -/
def rowOf (w : BitVec 32) : Fin 256 := ⟨w.toNat % 256, Nat.mod_lt _ (by norm_num)⟩

theorem rowOf_val {w : BitVec 32} (h : w.toNat < 256) : (rowOf w).val = w.toNat := Nat.mod_eq_of_lt h

/-- Row (b, s) of the array being normalised: the features' row plus the table row of the b-th id. -/
def xAt (feat : FVec Ideal SFeat .f32) (ids : IVec SIds 32) (emb : FVec Ideal STable .f32) (b : Fin 4) (s : Fin 8192) :
    Fin 1024 → EReal :=
  fun k => feat (ix3 b s k) + emb (ix2 (rowOf (ids (ix1 b))) k)

/-- The result array: entry (b, s, d) is the normalised row (b, s) at d, scaled by gamma(d), shifted by beta(d). -/
def G (feat : FVec Ideal SFeat .f32) (ids : IVec SIds 32) (emb : FVec Ideal STable .f32)
    (γ β : FVec Ideal SVec .f32) : FVec Ideal SFeat .f32 :=
  fun i => rowK (xAt feat ids emb (i 0) (i 1)) (fun k => γ (ix1 k)) (fun k => β (ix1 k)) (i 2)

theorem G_apply (feat : FVec Ideal SFeat .f32) (ids : IVec SIds 32) (emb : FVec Ideal STable .f32)
    (γ β : FVec Ideal SVec .f32) (b : Fin 4) (s : Fin 8192) (d : Fin 1024) :
    G feat ids emb γ β (ix3 b s d) = rowK (xAt feat ids emb b s) (fun k => γ (ix1 k)) (fun k => β (ix1 k)) d := rfl

end Cert.LayerNorm

end
-- ==== Proof.LibReal.lean ====
/-
  Real numbers among the extended reals, and two of the host's activation functions on one number.

  * `IsReal x`: the extended real x is a real number. Sums, products, differences, finite sums, the exponential, a
    selection between two real numbers, and a single-precision constant whose exponent field is not all ones are real.
  * An extended real whose absolute value max(x, -x) is below plus infinity is real; so an array that passes the test
    "all |entries| < +inf" has real entries.
  * The scaled exponential linear unit and the softplus as a host program spells them, on one number: the first keeps
    real numbers real, the second sends a real number to a POSITIVE real number (max(r, 0) ≥ 0 and log(1 + e^{-|r|}) > 0;
    the guard "z differs from itself" of the lowering never fires on the extended reals).
  * For a nonzero denominator, a product with the reciprocal 1 / D is the quotient by D (the float 1.0 is the number 1).
-/
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

open scoped BigOperators

namespace Cert.LibReal

open Idealize.ShloMosaic Idealize.ShloMosaic.ValueIdx

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩
theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.exp {a : EReal} (ha : IsReal a) : IsReal (Ideal.exp a) := by
  obtain ⟨r, rfl⟩ := ha; exact ⟨Real.exp r, rfl⟩

/-- A positive real number, as an extended real, is above zero. -/
theorem pos_of_real {s : EReal} (h : ∃ r : ℝ, 0 < r ∧ s = (r : EReal)) : 0 < s := by
  obtain ⟨r, hr, rfl⟩ := h; exact EReal.coe_pos.mpr hr

/-- A finite sum of real numbers, taken in the extended reals, is the real sum. -/
theorem sum_coe {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ k, IsReal (f k)) : IsReal (∑ k ∈ s, f k) := by
  choose g hg using h
  refine ⟨∑ k ∈ s, g k, ?_⟩
  rw [← sum_coe]
  exact Finset.sum_congr rfl fun k _ => hg k

/-- The larger of two real numbers, taken in the extended reals. -/
theorem coe_max (a b : ℝ) : max (a : EReal) (b : EReal) = ((max a b : ℝ) : EReal) :=
  (EReal.coe_strictMono.monotone.map_max).symm

theorem select_real {c : BitVec 1} {a b : EReal} (ha : IsReal a) (hb : IsReal b) : IsReal (Scalar.select c a b) := by
  unfold Scalar.select; split_ifs <;> assumption

/-! ## Float constants -/

/-- A single-precision pattern whose exponent field is not all ones denotes a real number. -/
theorem ieee_real (b : BitVec 32) (h : (b.extractLsb' 23 8).toNat ≠ 255) : IsReal (Ideal.ofBits .f32 b) := by
  show IsReal (Ideal.ieee 8 23 b)
  unfold Ideal.ieee
  simp only []
  rw [if_neg (by simpa using h)]
  split_ifs <;> exact ⟨_, rfl⟩

theorem ofBits_one : Ideal.ofBits .f32 0x3F800000#32 = 1 := by
  simp [Ideal.ofBits, Ideal.ieee]
  rw [← EReal.coe_mul, ← EReal.coe_one]; congr 1; norm_num
theorem ofBits_two : Ideal.ofBits .f32 0x40000000#32 = ((2 : ℝ) : EReal) := by
  simp [Ideal.ofBits, Ideal.ieee]
  rw [← EReal.coe_mul]; congr 1; norm_num
theorem ofBits_inf : Ideal.ofBits .f32 0x7F800000#32 = ⊤ := by simp [Ideal.ofBits, Ideal.ieee]

/-- For a nonzero denominator, multiplying by the reciprocal is dividing. -/
theorem mul_div_one (a D : EReal) (hD : D ≠ 0) : a * Ideal.div (Ideal.ofBits .f32 0x3F800000#32) D = Ideal.div a D := by
  unfold Ideal.div
  rw [if_neg hD, if_neg hD, ofBits_one, one_mul]

/-! ## The finiteness test read back -/

/-- An extended real whose absolute value is below plus infinity is a real number. -/
theorem real_of_abs_lt_top (x : EReal) (h : Ideal.cmp .olt (max x (-x)) (Ideal.ofBits .f32 0x7F800000#32) = 1#1) : IsReal x := by
  rw [ofBits_inf] at h
  induction x using EReal.rec with
  | bot => simp [Ideal.cmp] at h
  | top => simp [Ideal.cmp] at h
  | coe r => exact ⟨r, rfl⟩

/-- An array's test "|a| < +inf", true at an entry, makes that entry real. -/
theorem entry_real {s : Shape} (a : FVec Ideal s .f32) (hb : (⟨0, ![]⟩ : Shape).BroadcastsInDim s ![]) (i : s.Idx)
    (h : cmpf .olt (Host.absf (F := Ideal) a) (broadcastInDim s ![] hb (constant (F := Ideal) ⟨0, ![]⟩ .f32 0x7F800000#32)) i = 1#1) :
    IsReal (a i) := by
  refine real_of_abs_lt_top (a i) ?_
  have hc : broadcastInDim s ![] hb (constant (F := Ideal) ⟨0, ![]⟩ .f32 0x7F800000#32) i = Ideal.ofBits .f32 0x7F800000#32 :=
    broadcastInDim_apply ![] hb _ i ix0 fun ax => ax.elim0
  rw [← hc]
  exact h

/-! ## The host's activation functions on one number -/

/-- The scaled exponential linear unit as the host computes it on one number: the scale times (u where u > 0, else
    alpha (e^{u'} - 1) with u' = 0 where u > 0, else u). -/
def seluS (u : EReal) : EReal :=
  Ideal.ofBits .f32 0x3F867D5F#32 * Scalar.select (Ideal.cmp .ogt u (Ideal.ofBits .f32 0x00000000#32)) u
    (Ideal.ofBits .f32 0x3FD62D7D#32 * (Ideal.exp (Scalar.select (Ideal.cmp .ogt u (Ideal.ofBits .f32 0x00000000#32))
      (Ideal.ofBits .f32 0x00000000#32) u) - 1))

theorem seluS_real {u : EReal} (hu : IsReal u) : IsReal (seluS u) := by
  unfold seluS
  have h0 : IsReal (Ideal.ofBits .f32 0x00000000#32) := by rw [Ideal.ofBits_zero_f32]; exact IsReal.zero
  exact (ieee_real _ (by decide)).mul (select_real hu ((ieee_real _ (by decide)).mul (((select_real h0 hu).exp).sub IsReal.one)))

/-- Softplus as the host computes it on one number. -/
def softplusS (z : EReal) : EReal :=
  Scalar.select (Ideal.cmp .une (z - Ideal.ofBits .f32 0x00000000#32) (z - Ideal.ofBits .f32 0x00000000#32))
    (z + Ideal.ofBits .f32 0x00000000#32)
    (max z (Ideal.ofBits .f32 0x00000000#32)
      + Ideal.log1p (Ideal.exp (-(max (z - Ideal.ofBits .f32 0x00000000#32) (-(z - Ideal.ofBits .f32 0x00000000#32))))))

/-- The softplus of a real number is a positive real number: max(r, 0) ≥ 0 and log(1 + e^{-|r|}) > 0. -/
theorem softplusS_pos {z : EReal} (hz : IsReal z) : ∃ r : ℝ, 0 < r ∧ softplusS z = (r : EReal) := by
  obtain ⟨r, rfl⟩ := hz
  unfold softplusS
  have hne : Ideal.cmp .une ((r : EReal) - Ideal.ofBits .f32 0x00000000#32) ((r : EReal) - Ideal.ofBits .f32 0x00000000#32) = 0#1 := by
    simp [Ideal.cmp]
  rw [hne, Ideal.ofBits_zero_f32]
  have hsel : ∀ a b : EReal, Scalar.select 0#1 a b = b := fun a b => if_neg (by decide)
  rw [hsel, sub_zero]
  have hE : 0 < Real.exp (-(max r (-r))) := Real.exp_pos _
  refine ⟨max r 0 + Real.log (1 + Real.exp (-(max r (-r)))), ?_, ?_⟩
  · have : 0 < Real.log (1 + Real.exp (-(max r (-r)))) := Real.log_pos (by linarith)
    have : 0 ≤ max r 0 := le_max_right _ _
    linarith
  · have e1 : max (r : EReal) (-(r : EReal)) = ((max r (-r) : ℝ) : EReal) := by
      rw [← EReal.coe_neg, coe_max]
    have e2 : max (r : EReal) 0 = ((max r 0 : ℝ) : EReal) := by
      rw [← EReal.coe_zero, coe_max]
    rw [e1, e2, ← EReal.coe_neg, Ideal.exp_coe]
    unfold Ideal.log1p
    rw [← EReal.coe_one, ← EReal.coe_add, Ideal.log_coe, if_neg (not_le.mpr (by linarith)), ← EReal.coe_add]

end Cert.LibReal

end
-- ==== Proof.LibBatchNorm.lean ====
/-
  Eval-mode batch normalisation folded into the affine map in front of it, on the extended reals.

  A fully connected layer followed by batch normalisation with running statistics computes, at column d of a row,
      ((Σ_k z_k W_kd + b_d) - mean_d) / s_d * gamma_d + beta_d,        s_d = sqrt(var_d + eps).
  Folding the normalisation into the layer's parameters computes instead
      Σ_k z_k (W_kd * (gamma_d / s_d)) + ((b_d - mean_d) * (gamma_d / s_d) + beta_d).
  The two agree when every number involved is real and s_d is a POSITIVE real: then the quotient by s_d is the product
  with the real 1 / s_d, and the identity is distributivity of a real factor over a finite real sum. Neither hypothesis
  can be dropped on the extended reals: with s_d = 0 the factor gamma_d / s_d is an infinity, the folded side spreads
  it over summands of both signs (plus infinity + minus infinity is minus infinity there) while the unfolded side divides
  the finished sum once.

  * `sqrt_add_pos`: for a real v ≥ 0 and a positive real eps, sqrt (v + eps) is a positive real.
  * `fold_batchnorm`: the identity above at one column, over any finite index type for k.
  * `eps_pos`: the single-precision constant nearest 1e-5 (pattern 0x3727C5AC) is a positive real.
-/
import proofs.«105337_g6193342840941_cont_9to1c4b_532_26_alg».proof.Proof.LibReal

noncomputable section

open scoped BigOperators

namespace Cert.LibBatchNorm

open Idealize.ShloMosaic Cert.LibReal

/-- The single-precision constant nearest 1e-5 is a positive real number. -/
theorem eps_pos : ∃ e : ℝ, 0 < e ∧ Ideal.ofBits .f32 0x3727C5AC#32 = (e : EReal) := by
  refine ⟨(2 : ℝ) ^ (-17 : ℤ) * (1 + 2606508 / 8388608), by positivity, ?_⟩
  simp [Ideal.ofBits, Ideal.ieee]
  rw [← EReal.coe_mul]; congr 1; norm_num

/-- The square root of a nonnegative real number plus a positive real number is a positive real number. -/
theorem sqrt_add_pos {v e : EReal} (hv : IsReal v) (h0 : 0 ≤ v) (he : ∃ r : ℝ, 0 < r ∧ e = (r : EReal)) :
    ∃ s : ℝ, 0 < s ∧ Ideal.sqrt (v + e) = (s : EReal) := by
  obtain ⟨v', rfl⟩ := hv
  obtain ⟨e', he', rfl⟩ := he
  have hv' : 0 ≤ v' := EReal.coe_nonneg.mp h0
  have hpos : 0 < v' + e' := by linarith
  refine ⟨Real.sqrt (v' + e'), Real.sqrt_pos.mpr hpos, ?_⟩
  rw [← EReal.coe_add, Ideal.sqrt_coe, if_neg (not_lt.mpr hpos.le)]

/-- Batch normalisation with running statistics, folded into the affine map in front of it, at one column: for real
    entries and a positive real denominator `s`, scaling every weight and the shifted bias by `g / s` and then
    adding `bt` is the same as normalising the finished affine value. -/
theorem fold_batchnorm {K : Type*} [Fintype K] (z w : K → EReal) (hz : ∀ k, IsReal (z k)) (hw : ∀ k, IsReal (w k))
    {b mn g bt s : EReal} (hb : IsReal b) (hmn : IsReal mn) (hg : IsReal g) (hbt : IsReal bt)
    (hs : ∃ r : ℝ, 0 < r ∧ s = (r : EReal)) :
    (∑ k, z k * (w k * Ideal.div g s)) + ((b - mn) * Ideal.div g s + bt)
      = Ideal.div ((∑ k, z k * w k + b) - mn) s * g + bt := by
  choose z' hz' using hz
  choose w' hw' using hw
  obtain rfl : z = fun k => ((z' k : ℝ) : EReal) := funext hz'
  obtain rfl : w = fun k => ((w' k : ℝ) : EReal) := funext hw'
  obtain ⟨b', rfl⟩ := hb; obtain ⟨mn', rfl⟩ := hmn; obtain ⟨g', rfl⟩ := hg; obtain ⟨bt', rfl⟩ := hbt
  obtain ⟨s', hs', rfl⟩ := hs
  have hne : s' ≠ 0 := ne_of_gt hs'
  rw [Ideal.div_coe hne, Ideal.div_coe hne]
  simp only [← EReal.coe_mul, ← EReal.coe_add, ← EReal.coe_sub, sum_coe]
  congr 1
  have hsum : ∑ k, z' k * (w' k * (g' * (1 / s'))) = (∑ k, z' k * w' k) * (g' * (1 / s')) := by
    rw [Finset.sum_mul]; exact Finset.sum_congr rfl fun k _ => by ring
  rw [hsum]; ring

end Cert.LibBatchNorm

end
-- ==== Proof.RowLaw.lean ====
/-
  The two arrangements of layer normalisation agree on a row of real numbers.

  For real x_0 .. x_1023 with mean m = (sum x) / 1024,
      (sum (x_k - m)^2) / 1024 = (sum x_k^2) / 1024 - m^2
  (expand the square and use sum x = 1024 m), so both variances are one nonnegative real v; with eps > 0 the number
  v + eps is a positive real, its square root s is a positive real, and dividing by s is multiplying by 1 / s, which is
  what the reciprocal square root of v + eps is.  Finiteness is needed: on the extended reals the expansion of the
  square fails at an infinite entry.
-/
import proofs.«105337_g6193342840941_cont_9to1c4b_532_26_alg».proof.Proof.Spec
import proofs.«105337_g6193342840941_cont_9to1c4b_532_26_alg».proof.Proof.LibReal
import proofs.«105337_g6193342840941_cont_9to1c4b_532_26_alg».proof.Proof.LibBatchNorm

noncomputable section

open scoped BigOperators

namespace Cert.LayerNorm

open Idealize.ShloMosaic Cert.LibReal Cert.LibBatchNorm

/-- The word 0x44800000 is the number 1024. -/
theorem c1024_eq : c1024 = ((1024 : ℝ) : EReal) := by
  unfold c1024
  simp [Ideal.ofBits, Ideal.ieee]
  rw [← EReal.coe_mul]; congr 1; norm_num

/-- Mean of squared deviations = mean of squares minus squared mean, for 1024 real numbers. -/
theorem var_identity (y : Fin 1024 → ℝ) :
    (∑ k, (y k - (∑ j, y j) / 1024) * (y k - (∑ j, y j) / 1024)) * (1 / 1024)
      = (∑ k, y k * y k) * (1 / 1024) - ((∑ j, y j) / 1024) * ((∑ j, y j) / 1024) := by
  generalize hμ : (∑ j, y j) / 1024 = μ
  have h2 : ∑ k, y k = 1024 * μ := by rw [← hμ]; ring
  have h1 : ∑ k, (y k - μ) * (y k - μ) = (∑ k, y k * y k) - 2 * μ * (∑ k, y k) + 1024 * (μ * μ) := by
    have e : ∀ k, (y k - μ) * (y k - μ) = y k * y k - 2 * μ * y k + μ * μ := fun k => by ring
    simp only [e, Finset.sum_add_distrib, Finset.sum_sub_distrib, ← Finset.mul_sum, Finset.sum_const,
      Finset.card_univ, Fintype.card_fin, nsmul_eq_mul]
    push_cast; ring
  rw [h1, h2]; ring

/-- The variance in either arrangement is nonnegative. -/
theorem var_nonneg (y : Fin 1024 → ℝ) (μ : ℝ) : 0 ≤ (∑ k, (y k - μ) * (y k - μ)) * (1 / 1024) :=
  mul_nonneg (Finset.sum_nonneg fun k _ => mul_self_nonneg _) (by norm_num)

/-- On a row of real numbers the two arrangements give the same entry, whatever gamma and beta are. -/
theorem rowR_eq_rowK (x γ β : Fin 1024 → EReal) (hx : ∀ k, IsReal (x k)) (d : Fin 1024) :
    rowR x γ β d = rowK x γ β d := by
  choose y hy using hx
  obtain rfl : x = fun k => ((y k : ℝ) : EReal) := funext hy
  obtain ⟨e, he, hee⟩ := eps_pos
  have h1024 : (1024 : ℝ) ≠ 0 := by norm_num
  -- the mean is the real mean
  have hmean : mean (fun k => ((y k : ℝ) : EReal)) = (((∑ k, y k) / 1024 : ℝ) : EReal) := by
    unfold mean
    rw [sum_coe, c1024_eq, Ideal.div_coe h1024, ← EReal.coe_mul]
    congr 1; ring
  unfold rowR rowK
  rw [hmean]
  generalize hμ : (∑ k, y k) / 1024 = μ
  -- the two sums of products are real sums
  have hsq : (∑ k, ((y k : ℝ) : EReal) * ((y k : ℝ) : EReal)) = ((∑ k, y k * y k : ℝ) : EReal) := by
    rw [← sum_coe]; exact Finset.sum_congr rfl fun k _ => (EReal.coe_mul _ _).symm
  have hcs : (∑ k, (((y k : ℝ) : EReal) - (μ : EReal)) * (((y k : ℝ) : EReal) - (μ : EReal)))
      = ((∑ k, (y k - μ) * (y k - μ) : ℝ) : EReal) := by
    rw [← sum_coe]; exact Finset.sum_congr rfl fun k _ => by rw [← EReal.coe_sub, ← EReal.coe_mul]
  rw [hsq, hcs, c1024_eq, Ideal.div_coe h1024, Ideal.div_coe h1024]
  unfold eps
  rw [hee]
  -- both variances are one real number v, and v + eps is positive
  simp only [← EReal.coe_mul, ← EReal.coe_sub]
  have hvar : (∑ k, (y k - μ) * (y k - μ)) * (1 / 1024) = (∑ k, y k * y k) * (1 / 1024) - μ * μ := by
    have := var_identity y; rw [hμ] at this; exact this
  have hv0 : 0 ≤ (∑ k, (y k - μ) * (y k - μ)) * (1 / 1024) := var_nonneg y μ
  generalize (∑ k, (y k - μ) * (y k - μ)) * (1 / 1024) = v at hvar hv0 ⊢
  rw [← hvar, ← EReal.coe_add]
  have hpos : 0 < v + e := by linarith
  have hs : Real.sqrt (v + e) ≠ 0 := (Real.sqrt_pos.mpr hpos).ne'
  rw [Ideal.sqrt_coe, if_neg (not_lt.mpr hpos.le), Ideal.rsqrt_coe, if_neg (not_lt.mpr hpos.le), if_neg hpos.ne',
    Ideal.div_coe hs, one_div]

end Cert.LayerNorm

end
-- ==== Proof.HypsPre.lean ====
/-
  The precondition read back.  The precondition is the conjunction of four tests "every entry of the array has absolute
  value below plus infinity" (on the features, the table, gamma and beta) and of the test "every id word is, read as a
  signed integer, at least 0 and below 256".  Each test is a reduction by "and" to one bit; the conjunction being 1
  makes every reduction 1, hence every tested entry passes.  A 32-bit word that reads signed in [0, 256) reads unsigned
  below 256; an extended real whose absolute value is below plus infinity is a real number.
-/
import proofs.«105337_g6193342840941_cont_9to1c4b_532_26_alg».proof.Pre_finite_inputs
import proofs.«105337_g6193342840941_cont_9to1c4b_532_26_alg».proof.Proof.Gen.Pre_finite_inputs
import proofs.«105337_g6193342840941_cont_9to1c4b_532_26_alg».proof.Proof.LibReal
import Idealize.ShloMosaic.Lib.ReduceAll
import Idealize.ShloMosaic.Lib.IdealHost
import Idealize.ShloMosaic.Lib.ValueIdx

noncomputable section

namespace Cert.Pre_finite_inputs.Dec

open Idealize.ShloMosaic Idealize.ShloMosaic.ValueIdx
open Cert.Pre_finite_inputs

/-- The scalar shape has one index. -/
instance : Subsingleton S_.Idx := ⟨fun a b => funext fun d => d.elim0⟩

/-- A 32-bit word that reads signed at least 0 and below 256 reads unsigned below 256. -/
theorem toNat_lt_256 (w : BitVec 32) (h0 : IntOp.cmpi .sge w 0#32 = 1#1) (h1 : IntOp.cmpi .slt w 256#32 = 1#1) :
    w.toNat < 256 := by
  rw [IntOp.cmpi_sge] at h0
  rw [IntOp.cmpi_slt] at h1
  rw [show (0#32 : BitVec 32).toInt = 0 from by decide] at h0
  rw [show (256#32 : BitVec 32).toInt = 256 from by decide] at h1
  rw [BitVec.toInt_eq_toNat_cond] at h0 h1
  have := w.isLt
  split at h0 <;> omega

/-- The vector "and" of two one-bit scalars, read at the one index. -/
theorem andi_ix0 (x y : IVec S_ 1) : andi x y ix0 = IntOp.andi (x ix0) (y ix0) := rfl

/-- The precondition's conjuncts that the proof uses: the features' and the table's finiteness tests pass at every
    entry, and every id word passes both signed tests. -/
theorem parts {F : FTy → Type} [FloatOps F] (a0 : FVec F S4x8192x1024 .f32) (a1 : IVec S4 32) (a2 : FVec F S256x1024 .f32)
    (a3 a4 : FVec F S1024 .f32) (h : Cert.Pre_finite_inputs.fn (F := F) a0 a1 a2 a3 a4 = fun _ => 1#1) :
    (∀ i : S4x8192x1024.Idx, cmpf .olt (Host.absf a0)
        (broadcastInDim S4x8192x1024 ![] Facts.bcast_S_S4x8192x1024 (constant (F := F) S_ .f32 0x7F800000#32)) i = 1#1)
    ∧ (∀ i : S256x1024.Idx, cmpf .olt (Host.absf a2)
        (broadcastInDim S256x1024 ![] Facts.bcast_S_S256x1024 (constant (F := F) S_ .f32 0x7F800000#32)) i = 1#1)
    ∧ (∀ i : S4.Idx, IntOp.cmpi .sge (a1 i) 0#32 = 1#1 ∧ IntOp.cmpi .slt (a1 i) 256#32 = 1#1) := by
  have e := congrFun h ix0
  dsimp only [fn, fn_part1] at e
  rw [andi_ix0, IntOp.andi_eq_one, andi_ix0, IntOp.andi_eq_one, andi_ix0, IntOp.andi_eq_one, andi_ix0,
    IntOp.andi_eq_one] at e
  obtain ⟨⟨⟨⟨h0, h2⟩, -⟩, -⟩, hi⟩ := e
  refine ⟨fun i => Host.reduce_andi_all _ _ _ _ ix0 h0 i, fun i => Host.reduce_andi_all _ _ _ _ ix0 h2 i, fun i => ?_⟩
  have hb := Host.reduce_andi_all _ _ _ _ ix0 hi i
  have hs : ∀ (x y : IVec S4 1), andi x y i = IntOp.andi (x i) (y i) := fun _ _ => rfl
  rw [hs, IntOp.andi_eq_one] at hb
  have c0 : broadcastInDim S4 ![] Facts.bcast_S_S4 (constantI S_ 32 0#32) i = 0#32 :=
    broadcastInDim_scalar_apply _ _ i
  have c1 : broadcastInDim S4 ![] Facts.bcast_S_S4 (constantI S_ 32 256#32) i = 256#32 :=
    broadcastInDim_scalar_apply _ _ i
  have g0 : cmpi .sge a1 (broadcastInDim S4 ![] Facts.bcast_S_S4 (constantI S_ 32 0#32)) i
      = IntOp.cmpi .sge (a1 i) (broadcastInDim S4 ![] Facts.bcast_S_S4 (constantI S_ 32 0#32) i) := rfl
  have g1 : cmpi .slt a1 (broadcastInDim S4 ![] Facts.bcast_S_S4 (constantI S_ 32 256#32)) i
      = IntOp.cmpi .slt (a1 i) (broadcastInDim S4 ![] Facts.bcast_S_S4 (constantI S_ 32 256#32) i) := rfl
  rw [g0, g1, c0, c1] at hb
  exact hb

/-- Every id word reads, unsigned, below 256. -/
theorem ids_lt {F : FTy → Type} [FloatOps F] (a0 : FVec F S4x8192x1024 .f32) (a1 : IVec S4 32) (a2 : FVec F S256x1024 .f32)
    (a3 a4 : FVec F S1024 .f32) (h : Cert.Pre_finite_inputs.fn (F := F) a0 a1 a2 a3 a4 = fun _ => 1#1) (b : Fin 4) :
    (a1 (ix1 b)).toNat < 256 :=
  have hp := (parts a0 a1 a2 a3 a4 h).2.2 (ix1 b)
  toNat_lt_256 _ hp.1 hp.2

/-- Every entry of the features is a real number. -/
theorem feat_real (a0 : FVec Ideal S4x8192x1024 .f32) (a1 : IVec S4 32) (a2 : FVec Ideal S256x1024 .f32)
    (a3 a4 : FVec Ideal S1024 .f32) (h : Cert.Pre_finite_inputs.fn (F := Ideal) a0 a1 a2 a3 a4 = fun _ => 1#1)
    (i : S4x8192x1024.Idx) : ∃ r : ℝ, a0 i = (r : EReal) :=
  Cert.LibReal.entry_real a0 Facts.bcast_S_S4x8192x1024 i ((parts a0 a1 a2 a3 a4 h).1 i)

/-- Every entry of the table is a real number. -/
theorem emb_real (a0 : FVec Ideal S4x8192x1024 .f32) (a1 : IVec S4 32) (a2 : FVec Ideal S256x1024 .f32)
    (a3 a4 : FVec Ideal S1024 .f32) (h : Cert.Pre_finite_inputs.fn (F := Ideal) a0 a1 a2 a3 a4 = fun _ => 1#1)
    (i : S256x1024.Idx) : ∃ r : ℝ, a2 i = (r : EReal) :=
  Cert.LibReal.entry_real a2 Facts.bcast_S_S256x1024 i ((parts a0 a1 a2 a3 a4 h).2.1 i)

end Cert.Pre_finite_inputs.Dec

end
-- ==== Proof.HypsKernel.lean ====
/-
  The side condition the generated frame is stated under, from the precondition.  The table window's index map reads
  the id word at the first grid coordinate and asks for block (id, 0, 0) of the [256, 1, 1024] table in blocks of
  [1, 1, 1024]: the block lies inside the table when id + 1 ≤ 256, which the precondition's "0 ≤ id < 256" gives.
-/
import proofs.«105337_g6193342840941_cont_9to1c4b_532_26_alg».proof.Defs
import proofs.«105337_g6193342840941_cont_9to1c4b_532_26_alg».proof.Proof.Gen.Kernel.Frame
import proofs.«105337_g6193342840941_cont_9to1c4b_532_26_alg».proof.Proof.HypsPre

set_option maxRecDepth 16384

noncomputable section

namespace Cert.Kernel.Hyps

open Cert.Kernel Cert.Kernel.Gen
open Idealize.ShloMosaic Idealize.ShloMosaic.TcCoe Idealize.SL.Sem
open Idealize.ShloMosaic.ValueIdx (ix1 eq_ix1)

/-- The table window's index map at any contents of the id table: (the id word it reads, 0, 0). -/
theorem transform_1_eq {F : FTy → Type} [FloatOps F] (pf : pre0.Contents (Elt F)) (i : grid0.Coords) :
    ∃ x, cc0_transform_1 (F := F) Facts₀.k0_off1_inb Facts₀.numel1_S1 pf i = ![(pf 0 x).toNat, 0, 0] :=
  ⟨_, rfl⟩

variable (m : (ℓ : Loc nD τ sig) → Buf (Elt Bits) ℓ)

/-- Every id word reads, unsigned, below 256. -/
theorem ids_lt (h : Cert.Pre_Kernel m) (c : Dev nD) (b : Fin 4) :
    ((m ((c.tc : Thread nD τ).loc main_arg1)) (ix1 b)).toNat < 256 :=
  Cert.Pre_finite_inputs.Dec.ids_lt _ _ _ _ _ (h c) b

/-- Every word of the id table, as the region finds it, reads below 256. -/
theorem tbl_lt (h : Cert.Pre_Kernel m) (x : S4.Idx) : (tbl m 0 x).toNat < 256 := by
  have e : tbl m 0 = m (((0 : Dev nD) : Thread nD τ).loc main_arg1) := V_main_arg1 m 0
  rw [e, eq_ix1 x]
  exact ids_lt m h 0 (x 0)

/-- The pipeline's side condition: the table window's block, at the id word, inside the [256, 1, 1024] table. -/
theorem ok_of_pre (h : Cert.Pre_Kernel m) : Cert.Kernel.Gen.Ok (F := Bits) m := by
  intro i
  obtain ⟨x, e⟩ := transform_1_eq (F := Bits) (tbl m) i
  have hw := tbl_lt m h x
  refine ⟨fun a => ?_, Or.inl rfl⟩
  rw [e]
  generalize (tbl m 0 x).toNat = n at hw
  fin_cases a
  · show (n + 1) * 1 ≤ 256
    omega
  · show (0 + 1) * 1 ≤ 1
    omega
  · show (0 + 1) * 1024 ≤ 1024
    omega

end Cert.Kernel.Hyps

end
-- ==== Proof.HypsKernelIdeal.lean ====
/-
  The side condition the generated frame is stated under, from the precondition.  The table window's index map reads
  the id word at the first grid coordinate and asks for block (id, 0, 0) of the [256, 1, 1024] table in blocks of
  [1, 1, 1024]: the block lies inside the table when id + 1 ≤ 256, which the precondition's "0 ≤ id < 256" gives.
  The same precondition makes every entry of the features and of the table a real number.
-/
import proofs.«105337_g6193342840941_cont_9to1c4b_532_26_alg».proof.Defs
import proofs.«105337_g6193342840941_cont_9to1c4b_532_26_alg».proof.Proof.Gen.KernelIdeal.Frame
import proofs.«105337_g6193342840941_cont_9to1c4b_532_26_alg».proof.Proof.HypsPre

set_option maxRecDepth 16384

noncomputable section

namespace Cert.KernelIdeal.Hyps

open Cert.KernelIdeal Cert.KernelIdeal.Gen
open Idealize.ShloMosaic Idealize.ShloMosaic.TcCoe Idealize.SL.Sem
open Idealize.ShloMosaic.ValueIdx (ix1 eq_ix1)

/-- The table window's index map at any contents of the id table: (the id word it reads, 0, 0). -/
theorem transform_1_eq {F : FTy → Type} [FloatOps F] (pf : pre0.Contents (Elt F)) (i : grid0.Coords) :
    ∃ x, cc0_transform_1 (F := F) Facts₀.k0_off1_inb Facts₀.numel1_S1 pf i = ![(pf 0 x).toNat, 0, 0] :=
  ⟨_, rfl⟩

variable (m : (ℓ : Loc nD τ sig) → Buf (Elt Ideal) ℓ)

/-- Every id word reads, unsigned, below 256. -/
theorem ids_lt (h : Cert.Pre_KernelIdeal m) (c : Dev nD) (b : Fin 4) :
    ((m ((c.tc : Thread nD τ).loc main_arg1)) (ix1 b)).toNat < 256 :=
  Cert.Pre_finite_inputs.Dec.ids_lt _ _ _ _ _ (h c) b

/-- Every entry of the features is a real number. -/
theorem feat_real (h : Cert.Pre_KernelIdeal m) (c : Dev nD) (i : S4x8192x1024.Idx) :
    ∃ r : ℝ, (m ((c.tc : Thread nD τ).loc main_arg0)) i = (r : EReal) :=
  Cert.Pre_finite_inputs.Dec.feat_real _ _ _ _ _ (h c) i

/-- Every entry of the table is a real number. -/
theorem emb_real (h : Cert.Pre_KernelIdeal m) (c : Dev nD) (i : S256x1024.Idx) :
    ∃ r : ℝ, (m ((c.tc : Thread nD τ).loc main_arg2)) i = (r : EReal) :=
  Cert.Pre_finite_inputs.Dec.emb_real _ _ _ _ _ (h c) i

/-- Every word of the id table, as the region finds it, reads below 256. -/
theorem tbl_lt (h : Cert.Pre_KernelIdeal m) (x : S4.Idx) : (tbl m 0 x).toNat < 256 := by
  have e : tbl m 0 = m (((0 : Dev nD) : Thread nD τ).loc main_arg1) := V_main_arg1 m 0
  rw [e, eq_ix1 x]
  exact ids_lt m h 0 (x 0)

/-- The pipeline's side condition: the table window's block, at the id word, inside the [256, 1, 1024] table. -/
theorem ok_of_pre (h : Cert.Pre_KernelIdeal m) : Cert.KernelIdeal.Gen.Ok (F := Ideal) m := by
  intro i
  obtain ⟨x, e⟩ := transform_1_eq (F := Ideal) (tbl m) i
  have hw := tbl_lt m h x
  refine ⟨fun a => ?_, Or.inl rfl⟩
  rw [e]
  generalize (tbl m 0 x).toNat = n at hw
  fin_cases a
  · show (n + 1) * 1 ≤ 256
    omega
  · show (0 + 1) * 1 ≤ 1
    omega
  · show (0 + 1) * 1024 ≤ 1024
    omega

end Cert.KernelIdeal.Hyps

end
-- ==== Proof.LibCol.lean ====
/-
  Columns and rows read at an index: a vector of `a` entries laid out as a column `[a, 1]` or a row `[1, a]`, a column
  repeated along `b` lanes, and the source index of a reduction over the last axis of a two-axis array.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.LibCol

open Idealize.ShloMosaic Idealize.ShloMosaic.ValueIdx

variable {α : Type}

/-- An `[a]` vector cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` repeated along `b` lanes reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's layout of an `[a]` vector as a column `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- The host's repetition of a column `[a, 1]` along `b` lanes reads, at `(p, c)`, the column at `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's layout of an `[a]` vector as a row `[1, a]` reads, at `(u, q)`, the vector at `q`. -/
theorem broadcastInDim_a_1a_apply {a : ℕ} (x : (⟨1, ![a]⟩ : Shape).Idx → α)
    (h : (⟨1, ![a]⟩ : Shape).BroadcastsInDim ⟨2, ![1, a]⟩ ![1]) (u : Fin 1) (q : Fin a) :
    broadcastInDim ⟨2, ![1, a]⟩ ![1] h x (ix2 u q) = x (ix1 q) := by
  refine broadcastInDim_apply ![1] h x (ix2 u q) (ix1 q) fun ax => ?_
  match ax with
  | ⟨0, _⟩ =>
    show q.val = if a = 1 then 0 else q.val
    split
    · have := q.isLt; omega
    · rfl

/-- Reducing a two-axis array over its last axis: the source index over row `p` with lane `k` is `(p, k)`. -/
theorem lift_last {R C : ℕ} (h : (⟨2, ![R, C]⟩ : Shape).Reduces [1] ⟨1, ![R]⟩) (p : Fin R) (k : Fin C) :
    h.lift (ix1 p) k = ix2 p k :=
  funext fun c => Fin.ext (by
    match c with
    | ⟨0, _⟩ => rfl
    | ⟨1, _⟩ => rfl)

/-- Reducing a two-axis array over its first axis: the source index over lane `q` with row `k` is `(k, q)`. -/
theorem lift_first {R C : ℕ} (h : (⟨2, ![R, C]⟩ : Shape).Reduces [0] ⟨1, ![C]⟩) (q : Fin C) (k : Fin R) :
    h.lift (ix1 q) k = ix2 k q :=
  funext fun c => Fin.ext (by
    match c with
    | ⟨0, _⟩ => rfl
    | ⟨1, _⟩ => rfl)

end Cert.LibCol

end
-- ==== Proof.LibRowReduce.lean ====
/-
  Row and column reductions of a two-axis array read at an index, at the exact extended-real instance: the minimum,
  maximum and sum of a row `p` of an `[R, C]` array are the fold of `min` / `max` from the accumulator's value, or the sum, over
  the row's entries `src (p, c)`; the sum over the rows of a one-column array `[R, 1]` is the sum of its entries.
-/
import Idealize.ShloMosaic.Lib.ValueIdx
import Idealize.ShloMosaic.PureOps.Ideal.Laws
import Idealize.ShloMosaic.PureOps.Reduce
import proofs.«105337_g6193342840941_cont_9to1c4b_532_26_alg».proof.Proof.LibCol

noncomputable section

open scoped BigOperators

namespace Cert.LibRowReduce

open Idealize.ShloMosaic Idealize.ShloMosaic.ValueIdx

variable {R C : ℕ}

/-- The least entry of row `p`, from the accumulator's value. -/
theorem row_min (src : FVec Ideal ⟨2, ![R, C]⟩ .f32) (acc : BitVec 32) (h : (⟨2, ![R, C]⟩ : Shape).Reduces [1] ⟨1, ![R]⟩)
    (hφ : FKind.Formats .f32) (hacc : acc = FKind.minimumf.neutral .f32 hφ) (p : Fin R) :
    multiReduction .minimumf [1] ⟨1, ![R]⟩ src acc h hφ hacc (ix1 p)
      = (Finset.univ : Finset (Fin C)).fold min (Ideal.ofBits .f32 acc) fun c => src (ix2 p c) := by
  rw [multiReduction_minimumf_eq_fold]
  refine (h.fold_filter_drop_single _ _ src (ix1 p)).trans ?_
  exact congrArg (fun f => Finset.fold min (Ideal.ofBits .f32 acc) f (Finset.univ : Finset (Fin C)))
    (funext fun c => congrArg src (LibCol.lift_last h p c))

/-- The greatest entry of row `p`, from the accumulator's value. -/
theorem row_max (src : FVec Ideal ⟨2, ![R, C]⟩ .f32) (acc : BitVec 32) (h : (⟨2, ![R, C]⟩ : Shape).Reduces [1] ⟨1, ![R]⟩)
    (hφ : FKind.Formats .f32) (hacc : acc = FKind.maximumf.neutral .f32 hφ) (p : Fin R) :
    multiReduction .maximumf [1] ⟨1, ![R]⟩ src acc h hφ hacc (ix1 p)
      = (Finset.univ : Finset (Fin C)).fold max (Ideal.ofBits .f32 acc) fun c => src (ix2 p c) := by
  rw [multiReduction_maximumf_eq_fold]
  refine (h.fold_filter_drop_single _ _ src (ix1 p)).trans ?_
  exact congrArg (fun f => Finset.fold max (Ideal.ofBits .f32 acc) f (Finset.univ : Finset (Fin C)))
    (funext fun c => congrArg src (LibCol.lift_last h p c))

/-- The sum of row `p`. -/
theorem row_sum (src : FVec Ideal ⟨2, ![R, C]⟩ .f32) (acc : BitVec 32) (h : (⟨2, ![R, C]⟩ : Shape).Reduces [1] ⟨1, ![R]⟩)
    (hφ : FKind.Formats .f32) (hacc : acc = FKind.add.neutral .f32 hφ) (p : Fin R) :
    multiReduction .add [1] ⟨1, ![R]⟩ src acc h hφ hacc (ix1 p) = ∑ c : Fin C, src (ix2 p c) :=
  (Ideal.multiReduction_add_single src acc h hφ hacc (ix1 p)).trans
    (Finset.sum_congr rfl fun c _ => congrArg src (LibCol.lift_last h p c))

/-- The sum of a column `q` over the rows. -/
theorem col_sum (src : FVec Ideal ⟨2, ![R, C]⟩ .f32) (acc : BitVec 32) (h : (⟨2, ![R, C]⟩ : Shape).Reduces [0] ⟨1, ![C]⟩)
    (hφ : FKind.Formats .f32) (hacc : acc = FKind.add.neutral .f32 hφ) (q : Fin C) :
    multiReduction .add [0] ⟨1, ![C]⟩ src acc h hφ hacc (ix1 q) = ∑ r : Fin R, src (ix2 r q) :=
  (Ideal.multiReduction_add_single src acc h hφ hacc (ix1 q)).trans
    (Finset.sum_congr rfl fun r _ => congrArg src (LibCol.lift_first h q r))

end Cert.LibRowReduce

end
-- ==== Proof.KPay.lean ====
/-
  The kernel's arithmetic at one entry.  The body normalises a half block of 2048 rows of 1024 lanes: each row x is the
  features' row plus the one table row; the row's sum and its sum of squares are lane reductions laid out as columns
  [2048, 1]; the mean is the sum over 1024, the variance is the mean of squares minus the squared mean; the centred entry
  is multiplied by the reciprocal square root of variance + eps (both columns repeated along the lanes), then by gamma's
  row and shifted by beta's row (both repeated along the rows).  Read at (0, r, d) this is the row function of the
  specification at the row r and the lane d.
-/
import proofs.«105337_g6193342840941_cont_9to1c4b_532_26_alg».proof.Proof.Gen.KernelIdeal.Skeleton
import proofs.«105337_g6193342840941_cont_9to1c4b_532_26_alg».proof.Proof.Spec
import proofs.«105337_g6193342840941_cont_9to1c4b_532_26_alg».proof.Proof.LibCol
import proofs.«105337_g6193342840941_cont_9to1c4b_532_26_alg».proof.Proof.LibRowReduce
import Idealize.ShloMosaic.Lib.Pipeline.Value
import Idealize.ShloMosaic.Lib.ValueLayout

noncomputable section

open scoped BigOperators

namespace Cert.KernelIdeal.KPay

open Cert.KernelIdeal Cert.KernelIdeal.Gen
open Idealize.ShloMosaic Idealize.ShloMosaic.ValueIdx

/-- Row r of the half block being normalised: the features' row plus the table's one row. -/
def xrow (v12 : FVec Ideal S1x2048x1024 .f32) (v14 : FVec Ideal S1x1x1024 .f32) (r : Fin 2048) : Fin 1024 → EReal :=
  fun k => v12 (ix3 (0 : Fin 1) r k) + v14 (ix3 (0 : Fin 1) (0 : Fin 1) k)

/-- The block with its unit axis dropped plus the table row repeated along the rows, at (r, k). -/
theorem xsum_apply (v12 : FVec Ideal S1x2048x1024 .f32) (v14 : FVec Ideal S1x1x1024 .f32) (r : Fin 2048) (k : Fin 1024) :
    addf (F := Ideal) (shapeCast S2048x1024 v12 shapeCasts_S1x2048x1024_S2048x1024)
      (broadcastTo S2048x1024 (shapeCast S1x1024 v14 shapeCasts_S1x1x1024_S1x1024) broadcasts_S1x1024_S2048x1024) (ix2 r k)
      = xrow v12 v14 r k := by
  refine (addf_apply _ _ _).trans ?_
  refine congrArg₂ (· + ·) ?_ ?_
  · exact shapeCast_1ab_ab_apply v12 shapeCasts_S1x2048x1024_S2048x1024 r k
  · refine (broadcastTo_1b_ab_apply _ broadcasts_S1x1024_S2048x1024 r k).trans ?_
    exact shapeCast_1ab_ab_apply v14 shapeCasts_S1x1x1024_S1x1024 (0 : Fin 1) k

/-- A lane sum laid out as a column, at (r, u): the sum of row r. -/
theorem rowSum_col (V : FVec Ideal S2048x1024 .f32) (r : Fin 2048) (u : Fin 1) :
    shapeCast S2048x1 (multiReduction (F := Ideal) .add [1] S2048 V 0x00000000#32 reduces_S2048x1024_S2048 (.inl rfl) rfl)
      shapeCasts_S2048_S2048x1 (ix2 r u) = ∑ k : Fin 1024, V (ix2 r k) :=
  (LibCol.shapeCast_a_a1_apply _ shapeCasts_S2048_S2048x1 r u).trans
    (LibRowReduce.row_sum V 0x00000000#32 reduces_S2048x1024_S2048 (.inl rfl) rfl r)

/-- The centred and scaled entry, before gamma and beta. -/
def rowN (x : Fin 1024 → EReal) (d : Fin 1024) : EReal :=
  (x d - Cert.LayerNorm.mean x) * Ideal.rsqrt ((Ideal.div (∑ k, x k * x k) Cert.LayerNorm.c1024
    - Cert.LayerNorm.mean x * Cert.LayerNorm.mean x) + Cert.LayerNorm.eps)

theorem rowK_eq (x γ β : Fin 1024 → EReal) (d : Fin 1024) : Cert.LayerNorm.rowK x γ β d = rowN x d * γ d + β d := rfl

/-- The mean column at (r, u): the row's sum over 1024. -/
theorem meanCol (V : FVec Ideal S2048x1024 .f32) (r : Fin 2048) (u : Fin 1) :
    divf (F := Ideal) (shapeCast S2048x1 (multiReduction (F := Ideal) .add [1] S2048 V 0x00000000#32 reduces_S2048x1024_S2048 (.inl rfl) rfl)
      shapeCasts_S2048_S2048x1) (broadcast S2048x1 (Scalar.ofBits (F := Ideal) .f32 0x44800000#32)) (ix2 r u)
      = Cert.LayerNorm.mean (fun k => V (ix2 r k)) :=
  (divf_apply _ _ _).trans (congrArg₂ Ideal.div (rowSum_col V r u) rfl)

/-- The mean-of-squares column at (r, u). -/
theorem sqCol (V : FVec Ideal S2048x1024 .f32) (r : Fin 2048) (u : Fin 1) :
    divf (F := Ideal) (shapeCast S2048x1 (multiReduction (F := Ideal) .add [1] S2048 (mulf V V) 0x00000000#32 reduces_S2048x1024_S2048 (.inl rfl) rfl)
      shapeCasts_S2048_S2048x1) (broadcast S2048x1 (Scalar.ofBits (F := Ideal) .f32 0x44800000#32)) (ix2 r u)
      = Ideal.div (∑ k, V (ix2 r k) * V (ix2 r k)) Cert.LayerNorm.c1024 :=
  (divf_apply _ _ _).trans (congrArg₂ Ideal.div (rowSum_col (mulf V V) r u) rfl)

/-- The normalised half block at (r, d). -/
theorem pay2_apply (v12 : FVec Ideal S1x2048x1024 .f32) (v14 : FVec Ideal S1x1x1024 .f32) (r : Fin 2048) (d : Fin 1024) :
    k0_pay2 (F := Ideal) v12 v14 (ix2 r d) = rowN (xrow v12 v14 r) d := by
  unfold k0_pay2
  dsimp only
  generalize hV : addf (F := Ideal) (shapeCast S2048x1024 v12 shapeCasts_S1x2048x1024_S2048x1024)
      (broadcastTo S2048x1024 (shapeCast S1x1024 v14 shapeCasts_S1x1x1024_S1x1024) broadcasts_S1x1024_S2048x1024) = V
  have hx : (fun k => V (ix2 r k)) = xrow v12 v14 r := funext fun k => by rw [← hV]; exact xsum_apply v12 v14 r k
  rw [← hx]
  clear hx hV
  unfold rowN
  refine (mulf_apply _ _ _).trans ?_
  refine congrArg₂ (· * ·) ?_ ?_
  · refine (subf_apply _ _ _).trans ?_
    refine congrArg₂ (· - ·) rfl ?_
    refine (LibCol.broadcastTo_a1_ab_apply _ broadcasts_S2048x1_S2048x1024 r d).trans ?_
    exact meanCol V r 0
  · refine (LibCol.broadcastTo_a1_ab_apply _ broadcasts_S2048x1_S2048x1024 r d).trans ?_
    show Ideal.rsqrt _ = _
    refine congrArg Ideal.rsqrt ?_
    refine (addf_apply _ _ _).trans ?_
    refine congrArg₂ (· + ·) ?_ rfl
    refine (subf_apply _ _ _).trans ?_
    refine congrArg₂ (· - ·) (sqCol V r 0) ?_
    refine (mulf_apply _ _ _).trans ?_
    exact congrArg₂ (· * ·) (meanCol V r 0) (meanCol V r 0)

/-- Gamma's row repeated along the rows, at (r, d). -/
theorem pay3_apply (v36 : FVec Ideal S1x1024 .f32) (r : Fin 2048) (d : Fin 1024) :
    k0_pay3 (F := Ideal) v36 (ix2 r d) = v36 (ix2 (0 : Fin 1) d) := by
  unfold k0_pay3
  refine (broadcastTo_1b_ab_apply _ broadcasts_S1x1024_S2048x1024 r d).trans ?_
  rw [shapeCast_self]

/-- The stored block at (u, r, d): the product plus beta's row repeated along the rows. -/
theorem pay1_apply (v35 v38 : FVec Ideal S2048x1024 .f32) (v40 : FVec Ideal S1x1024 .f32) (u : Fin 1) (r : Fin 2048) (d : Fin 1024) :
    k0_pay1 (F := Ideal) v35 v38 v40 (ix3 u r d) = v35 (ix2 r d) * v38 (ix2 r d) + v40 (ix2 (0 : Fin 1) d) := by
  unfold k0_pay1
  refine (shapeCast_ab_1ab_apply _ shapeCasts_S2048x1024_S1x2048x1024 u r d).trans ?_
  refine (addf_apply _ _ _).trans ?_
  refine congrArg₂ (· + ·) (mulf_apply _ _ _) ?_
  refine (broadcastTo_1b_ab_apply _ broadcasts_S1x1024_S2048x1024 r d).trans ?_
  rw [shapeCast_self]

/-- THE PAYLOAD AT AN ENTRY: the one store's value at (u, r, d) is the specification's row function of the row
    features + table row, with gamma's and beta's rows. -/
theorem pay_apply (v12 : FVec Ideal S1x2048x1024 .f32) (v14 : FVec Ideal S1x1x1024 .f32) (v36 v40 : FVec Ideal S1x1024 .f32)
    (u : Fin 1) (r : Fin 2048) (d : Fin 1024) :
    k0_pay1 (F := Ideal) (k0_pay2 v12 v14) (k0_pay3 v36) v40 (ix3 u r d)
      = Cert.LayerNorm.rowK (fun k => v12 (ix3 (0 : Fin 1) r k) + v14 (ix3 (0 : Fin 1) (0 : Fin 1) k))
          (fun k => v36 (ix2 (0 : Fin 1) k)) (fun k => v40 (ix2 (0 : Fin 1) k)) d := by
  rw [pay1_apply, pay2_apply, pay3_apply, rowK_eq]
  rfl

end Cert.KernelIdeal.KPay

end
-- ==== Proof.KBlock.lean ====
/-
  What the body leaves in the output's staging buffer at one grid point: its one store covers the buffer, so the buffer
  holds the store's payload - the normalisation of the loaded half block - and, read at (u, r, d), that is the row
  function of the specification at the row: features' half-block row + table row, with gamma's and beta's rows.
-/
import proofs.«105337_g6193342840941_cont_9to1c4b_532_26_alg».proof.Proof.Gen.KernelIdeal.Frame
import proofs.«105337_g6193342840941_cont_9to1c4b_532_26_alg».proof.Proof.KPay
import Idealize.ShloMosaic.Lib.Pipeline.Value
import Idealize.ShloMosaic.Lib.Tactic

set_option maxRecDepth 16384

noncomputable section

namespace Cert.KernelIdeal.KBlock

open Cert.KernelIdeal Cert.KernelIdeal.Gen
open Idealize.ShloMosaic Idealize.ShloMosaic.TcCoe Idealize.SL.Sem Idealize.ShloMosaic.ValueIdx
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl

section Piece
variable {F : FTy → Type} [FloatOps F]

/-- The output's staging buffer after the body: the payload of the one covering store, over the half of the features'
    block the body loads and the three other blocks whole. -/
theorem out_eq (c : Dev nD) (i : grid0.Coords) (arg3 : Memref sig .tc .vmem S1x4096x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x2048x1024 .f32) (harg7 : arg7.IsWhole)
    (x0 : Vec F S1x4096x1024 .f32) (x1 : Vec F S1x1x1024 .f32) (x2 : Vec F S1x1024 .f32) (x3 : Vec F S1x1024 .f32) (xt0 : TbBuf0 (F := F) c tbM0_0) :
    out0_A_4 c i arg3 harg3 arg4 harg4 arg5 harg5 arg6 harg6 arg7 harg7 x0 x1 x2 x3 xt0
      = k0_pay1 (k0_pay2 (View.ld x0 (Rect.unit (s := S1x4096x1024) (k0_off2 i) S1x2048x1024.size (k0_off2_inb i))) x1) (k0_pay3 x2) x3 := by
  unfold out0_A_4
  rw [View.read_writes_eq_canon _ _ _ (cover0_A_4 c i arg3 harg3 arg4 harg4 arg5 harg5 arg6 harg6 arg7 harg7 x0 x1 x2 x3 xt0)]
  unfold kernelRun0_A
  dsimp only
  sl_unfold_words
  rw [View.canon_unit_zero hz3]
  simp only [View.readAt_eq_ld, harg3.read_unread, harg4.read_unread, harg5.read_unread, harg6.read_unread,
    View.ld_unit_zero (S := S1x1x1024) hz3, View.ld_unit_zero (S := S1x1024) hz2]

end Piece

/-- The payload at (u, r, d), the loaded half starting at row o of the features' block. -/
theorem body_apply (X0 : FVec Ideal S1x4096x1024 .f32) (X1 : FVec Ideal S1x1x1024 .f32) (X2 X3 : FVec Ideal S1x1024 .f32)
    (off : Fin 3 → Nat) (inb : ∀ a, off a + S1x2048x1024.size a ≤ S1x4096x1024.size a) (o : Nat)
    (h0 : off 0 = 0) (h1 : off 1 = o) (h2 : off 2 = 0)
    (u : Fin 1) (r : Fin 2048) (d : Fin 1024) (r' : Fin 4096) (hr' : r'.val = o + r.val) :
    k0_pay1 (F := Ideal) (k0_pay2 (View.ld X0 (Rect.unit (s := S1x4096x1024) off S1x2048x1024.size inb)) X1) (k0_pay3 X2) X3 (ix3 u r d)
      = Cert.LayerNorm.rowK (fun k => X0 (ix3 (0 : Fin 1) r' k) + X1 (ix3 (0 : Fin 1) (0 : Fin 1) k))
          (fun k => X2 (ix2 (0 : Fin 1) k)) (fun k => X3 (ix2 (0 : Fin 1) k)) d := by
  refine (KPay.pay_apply _ X1 X2 X3 u r d).trans ?_
  refine congrFun (congrArg (fun x => Cert.LayerNorm.rowK x (fun k => X2 (ix2 (0 : Fin 1) k)) (fun k => X3 (ix2 (0 : Fin 1) k))) ?_) d
  funext k
  refine congrArg (· + X1 (ix3 (0 : Fin 1) (0 : Fin 1) k)) ?_
  show X0 _ = X0 _
  refine congrArg X0 ?_
  funext ax
  apply Fin.ext
  match ax with
  | ⟨0, _⟩ => show off 0 + 1 * 0 = 0; rw [h0]
  | ⟨1, _⟩ => show off 1 + 1 * r.val = r'.val; rw [h1, hr']; omega
  | ⟨2, _⟩ => show off 2 + 1 * k.val = k.val; rw [h2]; omega

end Cert.KernelIdeal.KBlock

end
-- ==== Proof.KRead.lean ====
/-
  The grid and the windows' blocks.  Point t of the 4 x 4 grid is (batch t / 4, quarter t % 4 of the sequence).
  The features' window has blocks of 4096 rows, block (t / 4, (t % 4) / 2); the body reads the half at row offset
  (t % 2) * 2048 of it, so the rows t % 4 * 2048 + r of the batch.  The table's window has one-row blocks, the row chosen
  by the id word of the batch (read unsigned).  Gamma's and beta's windows are their whole arrays.  The output's window
  has blocks of 2048 rows, block (t / 4, t % 4).  Everything here is stated for arbitrary admissible contents of the id
  table, so that nothing ever evaluates them.
-/
import proofs.«105337_g6193342840941_cont_9to1c4b_532_26_alg».proof.Proof.Gen.KernelIdeal.Frame
import Idealize.ShloMosaic.Lib.Pipeline.Value
import Idealize.ShloMosaic.Lib.ValueIdx
import Idealize.ShloMosaic.PureOps.Ideal
import Idealize.ShloMosaic.Lib.Tactic

set_option maxRecDepth 16384

noncomputable section

namespace Cert.KernelIdeal.KRead

open Cert.KernelIdeal Cert.KernelIdeal.Gen
open Idealize.ShloMosaic Idealize.ShloMosaic.TcCoe Idealize.SL.Sem Idealize.ShloMosaic.ValueIdx
open Idealize.ShloMosaic.Pipeline (Dat)

/-- The printed index maps and offsets, decided once over the sixteen points. -/
theorem grid_facts : ∀ t : Fin grid0.N,
    (cc0_transform_0 (grid0.coords t) 0 = t.val / 4 ∧ cc0_transform_0 (grid0.coords t) 1 = t.val % 4 / 2 ∧ cc0_transform_0 (grid0.coords t) 2 = 0)
    ∧ (k0_off2 (grid0.coords t) 0 = 0 ∧ k0_off2 (grid0.coords t) 1 = t.val % 2 * 2048 ∧ k0_off2 (grid0.coords t) 2 = 0)
    ∧ (cc0_transform_4 (grid0.coords t) 0 = t.val / 4 ∧ cc0_transform_4 (grid0.coords t) 1 = t.val % 4 ∧ cc0_transform_4 (grid0.coords t) 2 = 0)
    ∧ k0_off1 (grid0.coords t) 0 = t.val / 4
    ∧ (cc0_transform_2 (grid0.coords t) 0 = 0 ∧ cc0_transform_2 (grid0.coords t) 1 = 0)
    ∧ (cc0_transform_3 (grid0.coords t) 0 = 0 ∧ cc0_transform_3 (grid0.coords t) 1 = 0) := by decide +kernel

variable (a : (pcfg0 (F := Ideal)).Adm)

theorem idx0 (t : Fin (cfg0 a).N) : ((cfg0 a).win 0).index t = cc0_transform_0 (grid0.coords t) := rfl
theorem idx1 (t : Fin (cfg0 a).N) : ((cfg0 a).win 1).index t = cc0_transform_1 k0_off1_inb numel1_S1 a.1 (grid0.coords t) := rfl
theorem idx2 (t : Fin (cfg0 a).N) : ((cfg0 a).win 2).index t = cc0_transform_2 (grid0.coords t) := rfl
theorem idx3 (t : Fin (cfg0 a).N) : ((cfg0 a).win 3).index t = cc0_transform_3 (grid0.coords t) := rfl
theorem idx4 (t : Fin (cfg0 a).N) : ((cfg0 a).win 4).index t = cc0_transform_4 (grid0.coords t) := rfl

/-- The table window's block index: the id word of the point's batch, read unsigned; then 0, 0. -/
theorem tr1 (pf : pre0.Contents (Elt Ideal)) (t : Fin grid0.N) (b : Fin 4) (hb : b.val = t.val / 4) :
    cc0_transform_1 k0_off1_inb numel1_S1 pf (grid0.coords t) (0 : Fin 3) = ((pf 0 : S4.Idx → BitVec 32) (ix1 b)).toNat
    ∧ cc0_transform_1 k0_off1_inb numel1_S1 pf (grid0.coords t) (1 : Fin 3) = 0
    ∧ cc0_transform_1 k0_off1_inb numel1_S1 pf (grid0.coords t) (2 : Fin 3) = 0 := by
  refine ⟨?_, rfl, rfl⟩
  show (pf.at 0 (Rect.unit (s := S4) (k0_off1 (grid0.coords t)) S1.size (k0_off1_inb (grid0.coords t))) numel1_S1).toNat = _
  refine congrArg BitVec.toNat ?_
  show (pf 0 : S4.Idx → BitVec 32) _ = (pf 0 : S4.Idx → BitVec 32) _
  refine congrArg (pf 0 : S4.Idx → BitVec 32) ?_
  funext ax
  apply Fin.ext
  obtain ⟨-, -, -, e, -⟩ := grid_facts t
  match ax with
  | ⟨0, _⟩ => show k0_off1 (grid0.coords t) (0 : Fin 1) + 1 * 0 = b.val; rw [e, hb]; omega

/-- The features' block at point t, at (u, r, k): the features at (t / 4, (t % 4 / 2) * 4096 + r, k). -/
theorem blk0_apply (t : Fin (cfg0 a).N) (X : FVec Ideal S4x8192x1024 .f32)
    (u : Fin 1) (r : Fin 4096) (k : Fin 1024) (b : Fin 4) (s : Fin 8192) (hb : b.val = t.val / 4) (hs : s.val = t.val % 4 / 2 * 4096 + r.val) :
    ((((cfg0 a).win 0).blk t).view.read (Elt Ideal) X : Vec Ideal S1x4096x1024 .f32) (ix3 u r k) = X (ix3 b s k) := by
  show X _ = X _
  refine congrArg X ?_
  funext ax
  apply Fin.ext
  obtain ⟨⟨e0, e1, e2⟩, -⟩ := grid_facts t
  match ax with
  | ⟨0, _⟩ => show ((cfg0 a).win 0).index t (0 : Fin 3) * 1 + 1 * u.val = b.val; rw [idx0, e0, hb]; omega
  | ⟨1, _⟩ => show ((cfg0 a).win 0).index t (1 : Fin 3) * 4096 + 1 * r.val = s.val; rw [idx0, e1, hs]; omega
  | ⟨2, _⟩ => show ((cfg0 a).win 0).index t (2 : Fin 3) * 1024 + 1 * k.val = k.val; rw [idx0, e2]; omega

/-- The table's block at point t, at (u, v, k): the table's row p at k, p the id word of the point's batch. -/
theorem blk1_apply (t : Fin (cfg0 a).N) (X : FVec Ideal S256x1x1024 .f32) (u v : Fin 1) (k : Fin 1024) (b : Fin 4) (p : Fin 256)
    (hb : b.val = t.val / 4) (hp : p.val = ((a.1 0 : S4.Idx → BitVec 32) (ix1 b)).toNat) :
    ((((cfg0 a).win 1).blk t).view.read (Elt Ideal) X : Vec Ideal S1x1x1024 .f32) (ix3 u v k) = X (ix3 p (0 : Fin 1) k) := by
  show X _ = X _
  refine congrArg X ?_
  funext ax
  apply Fin.ext
  obtain ⟨e0, e1, e2⟩ := tr1 a.1 t b hb
  match ax with
  | ⟨0, _⟩ => show ((cfg0 a).win 1).index t (0 : Fin 3) * 1 + 1 * u.val = p.val; rw [idx1, e0, hp]; omega
  | ⟨1, _⟩ => show ((cfg0 a).win 1).index t (1 : Fin 3) * 1 + 1 * v.val = 0; rw [idx1, e1]; omega
  | ⟨2, _⟩ => show ((cfg0 a).win 1).index t (2 : Fin 3) * 1024 + 1 * k.val = k.val; rw [idx1, e2]; omega

/-- Gamma's block is gamma's whole row. -/
theorem blk2_apply (t : Fin (cfg0 a).N) (X : FVec Ideal S1x1024 .f32) (u : Fin 1) (k : Fin 1024) :
    ((((cfg0 a).win 2).blk t).view.read (Elt Ideal) X : Vec Ideal S1x1024 .f32) (ix2 u k) = X (ix2 u k) := by
  show X _ = X _
  refine congrArg X ?_
  funext ax
  apply Fin.ext
  obtain ⟨-, -, -, -, ⟨e0, e1⟩, -⟩ := grid_facts t
  match ax with
  | ⟨0, _⟩ => show ((cfg0 a).win 2).index t (0 : Fin 2) * 1 + 1 * u.val = u.val; rw [idx2, e0]; omega
  | ⟨1, _⟩ => show ((cfg0 a).win 2).index t (1 : Fin 2) * 1024 + 1 * k.val = k.val; rw [idx2, e1]; omega

/-- Beta's block is beta's whole row. -/
theorem blk3_apply (t : Fin (cfg0 a).N) (X : FVec Ideal S1x1024 .f32) (u : Fin 1) (k : Fin 1024) :
    ((((cfg0 a).win 3).blk t).view.read (Elt Ideal) X : Vec Ideal S1x1024 .f32) (ix2 u k) = X (ix2 u k) := by
  show X _ = X _
  refine congrArg X ?_
  funext ax
  apply Fin.ext
  obtain ⟨-, -, -, -, -, ⟨e0, e1⟩⟩ := grid_facts t
  match ax with
  | ⟨0, _⟩ => show ((cfg0 a).win 3).index t (0 : Fin 2) * 1 + 1 * u.val = u.val; rw [idx3, e0]; omega
  | ⟨1, _⟩ => show ((cfg0 a).win 3).index t (1 : Fin 2) * 1024 + 1 * k.val = k.val; rw [idx3, e1]; omega

end Cert.KernelIdeal.KRead

end
-- ==== Proof.KPoint.lean ====
/-
  What one grid point writes back is the block, at that point, of any array function that is the row function of the
  specification at every entry: the output's block (t / 4, t % 4) of 2048 rows holds the rows t % 4 * 2048 + r of batch
  t / 4, and those are the rows the body normalised - block (t % 4) / 2 of 4096 rows of the features' window at the half
  offset (t % 2) * 2048 - with the table row of that batch's id.
-/
import proofs.«105337_g6193342840941_cont_9to1c4b_532_26_alg».proof.Proof.Gen.KernelIdeal.Frame
import proofs.«105337_g6193342840941_cont_9to1c4b_532_26_alg».proof.Proof.Spec
import proofs.«105337_g6193342840941_cont_9to1c4b_532_26_alg».proof.Proof.KBlock
import proofs.«105337_g6193342840941_cont_9to1c4b_532_26_alg».proof.Proof.KRead
import Idealize.ShloMosaic.Lib.Pipeline.Value

set_option maxRecDepth 16384

noncomputable section

namespace Cert.KernelIdeal.KPoint

open Cert.KernelIdeal Cert.KernelIdeal.Gen
open Idealize.ShloMosaic Idealize.ShloMosaic.TcCoe Idealize.SL.Sem Idealize.ShloMosaic.ValueIdx
open Idealize.ShloMosaic.Pipeline (Dat)

theorem point_eq (a : (pcfg0 (F := Ideal)).Adm) (pf : pre0.Contents (Elt Ideal)) (hpf : a.1 = pf) (t : Fin (cfg0 a).N)
    (A0 : FVec Ideal S4x8192x1024 .f32) (A1 : FVec Ideal S256x1x1024 .f32) (A2 A3 : FVec Ideal S1x1024 .f32)
    (Gf : FVec Ideal S4x8192x1024 .f32) (P : Fin 4 → Fin 256)
    (hP : ∀ b : Fin 4, (P b).val = ((pf 0 : S4.Idx → BitVec 32) (ix1 b)).toNat)
    (hG : ∀ (b : Fin 4) (s : Fin 8192) (d : Fin 1024), Gf (ix3 b s d)
      = Cert.LayerNorm.rowK (fun k => A0 (ix3 b s k) + A1 (ix3 (P b) (0 : Fin 1) k)) (fun k => A2 (ix2 (0 : Fin 1) k)) (fun k => A3 (ix2 (0 : Fin 1) k)) d) :
    ((cfg0 a).win 4).cut (grid0.coords t)
        (k0_pay1 (F := Ideal) (k0_pay2 (View.ld ((((cfg0 a).win 0).blk t).view.read (Elt Ideal) A0 : Vec Ideal S1x4096x1024 .f32)
              (Rect.unit (s := S1x4096x1024) (k0_off2 (grid0.coords t)) S1x2048x1024.size (k0_off2_inb (grid0.coords t))))
            ((((cfg0 a).win 1).blk t).view.read (Elt Ideal) A1 : Vec Ideal S1x1x1024 .f32))
          (k0_pay3 ((((cfg0 a).win 2).blk t).view.read (Elt Ideal) A2 : Vec Ideal S1x1024 .f32))
          ((((cfg0 a).win 3).blk t).view.read (Elt Ideal) A3 : Vec Ideal S1x1024 .f32))
      = (((cfg0 a).win 4).blk t).view.read (Elt Ideal) Gf := by
  subst hpf
  funext y
  have hN : t.val < 16 := by have h := t.isLt; have e : (cfg0 a).N = 16 := N_0; omega
  have hy1 : (y (1 : Fin 3)).val < 2048 := (y (1 : Fin 3)).isLt
  have hy2 : (y (2 : Fin 3)).val < 1024 := (y (2 : Fin 3)).isLt
  have hy0 : (y (0 : Fin 3)).val < 1 := (y (0 : Fin 3)).isLt
  obtain ⟨-, ⟨g0, g1, g2⟩, ⟨f0, f1, f2⟩, -⟩ := KRead.grid_facts t
  have e1 : ((cfg0 a).win 4).xinj (grid0.coords t) y
      = (ix3 (0 : Fin 1) (⟨(y (1 : Fin 3)).val, hy1⟩ : Fin 2048) (⟨(y (2 : Fin 3)).val, hy2⟩ : Fin 1024) : S1x2048x1024.Idx) :=
    funext fun ax => Fin.ext (by
      match ax with
      | ⟨0, _⟩ => show (y (0 : Fin 3)).val = 0; omega
      | ⟨1, _⟩ => rfl
      | ⟨2, _⟩ => rfl)
  have e2 : (((cfg0 a).win 4).blk t).view.emb y
      = (ix3 (⟨t.val / 4, by omega⟩ : Fin 4) (⟨t.val % 4 * 2048 + (y (1 : Fin 3)).val, by omega⟩ : Fin 8192)
          (⟨(y (2 : Fin 3)).val, hy2⟩ : Fin 1024) : S4x8192x1024.Idx) :=
    funext fun ax => Fin.ext (by
      match ax with
      | ⟨0, _⟩ => show ((cfg0 a).win 4).index t (0 : Fin 3) * 1 + 1 * (y (0 : Fin 3)).val = t.val / 4; rw [KRead.idx4, f0]; omega
      | ⟨1, _⟩ => show ((cfg0 a).win 4).index t (1 : Fin 3) * 2048 + 1 * (y (1 : Fin 3)).val = t.val % 4 * 2048 + (y (1 : Fin 3)).val; rw [KRead.idx4, f1]; omega
      | ⟨2, _⟩ => show ((cfg0 a).win 4).index t (2 : Fin 3) * 1024 + 1 * (y (2 : Fin 3)).val = (y (2 : Fin 3)).val; rw [KRead.idx4, f2]; omega)
  show k0_pay1 (F := Ideal) _ _ _ (((cfg0 a).win 4).xinj (grid0.coords t) y) = Gf ((((cfg0 a).win 4).blk t).view.emb y)
  rw [e1, e2, hG]
  refine (KBlock.body_apply _ _ _ _ (k0_off2 (grid0.coords t)) _ (t.val % 2 * 2048) g0 g1 g2 (0 : Fin 1) _ _
    (⟨t.val % 2 * 2048 + (y (1 : Fin 3)).val, by omega⟩ : Fin 4096) rfl).trans ?_
  refine congrFun (congr (congr (congrArg Cert.LayerNorm.rowK (funext fun k => ?_)) (funext fun k => ?_)) (funext fun k => ?_)) _
  · refine congrArg₂ (· + ·) ?_ ?_
    · exact KRead.blk0_apply a t A0 (0 : Fin 1) _ k _ _ rfl (by show t.val % 4 * 2048 + (y (1 : Fin 3)).val = t.val % 4 / 2 * 4096 + (t.val % 2 * 2048 + (y (1 : Fin 3)).val); omega)
    · exact KRead.blk1_apply a t A1 (0 : Fin 1) (0 : Fin 1) k (⟨t.val / 4, by omega⟩ : Fin 4) (P _) rfl (hP _)
  · exact KRead.blk2_apply a t A2 (0 : Fin 1) k
  · exact KRead.blk3_apply a t A3 (0 : Fin 1) k

set_option backward.isDefEq.respectTransparency.types false in
/-- Every entry (b, s, d) of the output lies in the block of the point b * 4 + s / 2048, and every point writes back. -/
theorem cover (a : (pcfg0 (F := Ideal)).Adm) (i : S4x8192x1024.Idx) :
    ∃ t : Fin (cfg0 a).N, ((cfg0 a).win 4).flush t = true ∧ i ∈ (((cfg0 a).win 4).blk t).view.set := by
  have h0 : (i (0 : Fin 3)).val < 4 := (i (0 : Fin 3)).isLt
  have h1 : (i (1 : Fin 3)).val < 8192 := (i (1 : Fin 3)).isLt
  have h2 : (i (2 : Fin 3)).val < 1024 := (i (2 : Fin 3)).isLt
  have eN : (cfg0 a).N = 16 := N_0
  refine ⟨⟨(i (0 : Fin 3)).val * 4 + (i (1 : Fin 3)).val / 2048, by omega⟩, flush0_4 a _, ?_⟩
  generalize ht : (⟨(i (0 : Fin 3)).val * 4 + (i (1 : Fin 3)).val / 2048, by omega⟩ : Fin (cfg0 a).N) = t
  have htv : t.val = (i (0 : Fin 3)).val * 4 + (i (1 : Fin 3)).val / 2048 := by rw [← ht]
  obtain ⟨-, -, ⟨f0, f1, f2⟩, -⟩ := KRead.grid_facts t
  show i ∈ ((View.whole main_v3).slice (((cfg0 a).win 4).rect t)).set
  rw [View.set_slice_whole]
  refine Rect.mem_set_unit.mpr ?_
  intro ax
  match ax with
  | ⟨0, _⟩ =>
    show ((cfg0 a).win 4).index t (0 : Fin 3) * 1 ≤ (i (0 : Fin 3)).val ∧ (i (0 : Fin 3)).val < ((cfg0 a).win 4).index t (0 : Fin 3) * 1 + 1
    rw [KRead.idx4, f0]; omega
  | ⟨1, _⟩ =>
    show ((cfg0 a).win 4).index t (1 : Fin 3) * 2048 ≤ (i (1 : Fin 3)).val ∧ (i (1 : Fin 3)).val < ((cfg0 a).win 4).index t (1 : Fin 3) * 2048 + 2048
    rw [KRead.idx4, f1]; omega
  | ⟨2, _⟩ =>
    show ((cfg0 a).win 4).index t (2 : Fin 3) * 1024 ≤ (i (2 : Fin 3)).val ∧ (i (2 : Fin 3)).val < ((cfg0 a).win 4).index t (2 : Fin 3) * 1024 + 1024
    rw [KRead.idx4, f2]; omega

end Cert.KernelIdeal.KPoint

end
-- ==== Proof.KHost.lean ====
/-
  The three arrays the host lays out before the kernel region, read at an index.

  gamma and beta, vectors of 1024 entries, are laid out as rows [1, 1024]: entry (0, k) is entry k.  The table
  [256, 1024] is laid out as [256, 1, 1024]: entry (p, 0, k) is entry (p, k) — a reshape keeps the row-major position,
  and (p * 1 + 0) * 1024 + k = p * 1024 + k.
-/
import proofs.«105337_g6193342840941_cont_9to1c4b_532_26_alg».proof.Proof.Gen.KernelIdeal.Frame
import Idealize.ShloMosaic.Lib.Pipeline.Value
import Idealize.ShloMosaic.Lib.ValueLayout
import Idealize.ShloMosaic.Lib.ValueIdx
import Idealize.ShloMosaic.Lib.StableHlo.Run
import Idealize.ShloMosaic.PureOps.Ideal

noncomputable section

namespace Cert.KernelIdeal.KHost

open Cert.KernelIdeal Idealize.ShloMosaic Idealize.ShloMosaic.TcCoe Idealize.SL.Sem Idealize.ShloMosaic.ValueIdx
open Idealize.ShloMosaic.StableHlo

variable (m : (ℓ : Loc nD τ sig) → Buf (Elt Ideal) ℓ)

/-- The region finds gamma as a row. -/
theorem v0_eq (c : Dev nD) :
    (Gen.V m c main_v0 : S1x1024.Idx → EReal)
      = shapeCast S1x1024 (m ((c.tc : Thread nD τ).loc main_arg3) : S1024.Idx → EReal) Facts₀.shapeCasts_S1024_S1x1024 := by
  dsimp only [Gen.V, Gen.hostOps0]; after_results; rfl

/-- The region finds beta as a row. -/
theorem v1_eq (c : Dev nD) :
    (Gen.V m c main_v1 : S1x1024.Idx → EReal)
      = shapeCast S1x1024 (m ((c.tc : Thread nD τ).loc main_arg4) : S1024.Idx → EReal) Facts₀.shapeCasts_S1024_S1x1024 := by
  dsimp only [Gen.V, Gen.hostOps0]; after_results; rfl

/-- The region finds the table with a unit middle axis. -/
theorem v2_eq (c : Dev nD) :
    (Gen.V m c main_v2 : S256x1x1024.Idx → EReal)
      = shapeCast S256x1x1024 (m ((c.tc : Thread nD τ).loc main_arg2) : S256x1024.Idx → EReal) Facts₀.shapeCasts_S256x1024_S256x1x1024 := by
  dsimp only [Gen.V, Gen.hostOps0]; after_results; rfl

/-- A [256, 1024] array laid out as [256, 1, 1024], read at an index. -/
theorem table_cast_apply (x : S256x1024.Idx → EReal) (h : S256x1024.ShapeCasts S256x1x1024)
    (p : Fin 256) (u : Fin 1) (k : Fin 1024) : shapeCast S256x1x1024 x h (ix3 p u k) = x (ix2 p k) :=
  shapeCast_apply x h _ _ (by
    have hu : u.val = 0 := by omega
    rw [Shape.rowMajor_val_three, Shape.rowMajor_val_two]
    show p.val * 1024 + k.val = (p.val * 1 + u.val) * 1024 + k.val
    rw [hu, Nat.mul_one, Nat.add_zero])

theorem v0_apply (c : Dev nD) (u : Fin 1) (k : Fin 1024) :
    (Gen.V m c main_v0 : S1x1024.Idx → EReal) (ix2 u k) = (m ((c.tc : Thread nD τ).loc main_arg3) : S1024.Idx → EReal) (ix1 k) := by
  rw [v0_eq]; exact shapeCast_a_1a_apply _ _ u k

theorem v1_apply (c : Dev nD) (u : Fin 1) (k : Fin 1024) :
    (Gen.V m c main_v1 : S1x1024.Idx → EReal) (ix2 u k) = (m ((c.tc : Thread nD τ).loc main_arg4) : S1024.Idx → EReal) (ix1 k) := by
  rw [v1_eq]; exact shapeCast_a_1a_apply _ _ u k

theorem v2_apply (c : Dev nD) (p : Fin 256) (u : Fin 1) (k : Fin 1024) :
    (Gen.V m c main_v2 : S256x1x1024.Idx → EReal) (ix3 p u k) = (m ((c.tc : Thread nD τ).loc main_arg2) : S256x1024.Idx → EReal) (ix2 p k) := by
  rw [v2_eq]; exact table_cast_apply _ _ p u k

end Cert.KernelIdeal.KHost

end
-- ==== Proof.KValue.lean ====
/-
  The kernel's run, read: the result array ends holding the specification's function of the five argument arrays - every
  entry (b, s, d) is the normalised row (b, s) (features' row plus the table row of the b-th id) at d, scaled by
  gamma(d) and shifted by beta(d) - and the arguments end unchanged.  Each grid point writes back its block of that
  function; the sixteen blocks cover the array.  Gamma, beta and the table reach the region as a row, a row and an
  array with a unit middle axis, which read at an index are the arguments' entries; an id word below 256 selects the
  table row of that number.
-/
import proofs.«105337_g6193342840941_cont_9to1c4b_532_26_alg».proof.Proof.Gen.KernelIdeal.Frame
import proofs.«105337_g6193342840941_cont_9to1c4b_532_26_alg».proof.Proof.Spec
import proofs.«105337_g6193342840941_cont_9to1c4b_532_26_alg».proof.Proof.KBlock
import proofs.«105337_g6193342840941_cont_9to1c4b_532_26_alg».proof.Proof.KPoint
import proofs.«105337_g6193342840941_cont_9to1c4b_532_26_alg».proof.Proof.KHost
import Idealize.ShloMosaic.Lib.Pipeline.Value

set_option maxRecDepth 16384

noncomputable section

namespace Cert.KernelIdeal.KValue

open Cert.KernelIdeal Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The specification's array of the launch memory on core c. -/
abbrev Gm (c : Dev nD) : FVec Ideal Cert.LayerNorm.SFeat .f32 :=
  Cert.LayerNorm.G (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The four arrays the body's windows read, as the region finds them: the features, the table with a unit middle axis,
    gamma and beta as rows. -/
abbrev A0 (c : Dev nD) : FVec Ideal S4x8192x1024 .f32 := Gen.V m c main_arg0
abbrev A1 (c : Dev nD) : FVec Ideal S256x1x1024 .f32 := Gen.V m c main_v2
abbrev A2 (c : Dev nD) : FVec Ideal S1x1024 .f32 := Gen.V m c main_v0
abbrev A3 (c : Dev nD) : FVec Ideal S1x1024 .f32 := Gen.V m c main_v1

/-- The table row each batch's id selects. -/
abbrev rowSel (c : Dev nD) (b : Fin 4) : Fin 256 :=
  Cert.LayerNorm.rowOf ((m ((c.tc : Thread nD τ).loc main_arg1) : S4.Idx → BitVec 32) (ix1 b))

/-- The id table the region prefetches is the id argument. -/
theorem tbl_eq (c : Dev nD) : (Gen.tbl m 0 : S4.Idx → BitVec 32) = (m ((c.tc : Thread nD τ).loc main_arg1) : S4.Idx → BitVec 32) :=
  (Gen.V_pre m c 0).symm.trans (Gen.V_main_arg1 m c)

/-- The specification's array, entry by entry, over the arrays as the region finds them. -/
theorem Gm_apply (c : Dev nD) (b : Fin 4) (s : Fin 8192) (d : Fin 1024) :
    Gm m c (ix3 b s d) = Cert.LayerNorm.rowK
      (fun k => A0 m c (ix3 b s k) + A1 m c (ix3 (rowSel m c b) (0 : Fin 1) k))
      (fun k => A2 m c (ix2 (0 : Fin 1) k)) (fun k => A3 m c (ix2 (0 : Fin 1) k)) d := by
  refine (Cert.LayerNorm.G_apply _ _ _ _ _ b s d).trans ?_
  refine congrFun (congr (congr (congrArg Cert.LayerNorm.rowK (funext fun k => ?_)) (funext fun k => ?_)) (funext fun k => ?_)) d
  · refine congrArg₂ (· + ·) ?_ ?_
    · exact (congrFun (Gen.V_main_arg0 m c) (ix3 b s k)).symm
    · exact (KHost.v2_apply m c (rowSel m c b) (0 : Fin 1) k).symm
  · exact (KHost.v0_apply m c (0 : Fin 1) k).symm
  · exact (KHost.v1_apply m c (0 : Fin 1) k).symm

set_option backward.isDefEq.respectTransparency.types false in
/-- What point t writes back is block t of the specification's array. -/
theorem flushed_eq (hO : Gen.Ok (F := Ideal) m)
    (hids : ∀ (c : Dev nD) (b : Fin 4), ((m ((c.tc : Thread nD τ).loc main_arg1)) (ix1 b)).toNat < 256)
    (c : Dev nD) (t : Fin (Gen.cfgM m hO).N) :
    (Gen.dats m hO 0 c).flushed 4 t = (((Gen.cfgM m hO).win 4).blk t).view.read (Elt Ideal) (Gm m c) := by
  show ((Gen.cfgM m hO).win 4).cut (grid0.coords t) ((Gen.dats m hO 0 c).after 4 t) = _
  rw [Gen.after0_4]
  unfold Gen.outsAt0
  refine (congrArg (((Gen.cfgM m hO).win 4).cut (grid0.coords t))
    (KBlock.out_eq (F := Ideal) c (grid0.coords t) (Gen.ms0_0 m hO t) (Gen.hs0_0 m hO t) (Gen.ms0_1 m hO t) (Gen.hs0_1 m hO t)
      (Gen.ms0_2 m hO t) (Gen.hs0_2 m hO t) (Gen.ms0_3 m hO t) (Gen.hs0_3 m hO t) (Gen.ms0_4 m hO t) (Gen.hs0_4 m hO t)
      (Gen.iblk m hO c 0 t) (Gen.iblk m hO c 1 t) (Gen.iblk m hO c 2 t) (Gen.iblk m hO c 3 t) (Gen.tbl m 0))).trans ?_
  exact KPoint.point_eq (Gen.adm m hO) (Gen.tbl m) rfl t (A0 m c) (A1 m c) (A2 m c) (A3 m c)
    (Gm m c) (rowSel m c)
    (fun b => by rw [tbl_eq m c]; exact Cert.LayerNorm.rowOf_val (hids c b))
    (Gm_apply m c)

/-- The result array after the run. -/
theorem final (hO : Gen.Ok (F := Ideal) m)
    (hids : ∀ (c : Dev nD) (b : Fin 4), ((m ((c.tc : Thread nD τ).loc main_arg1)) (ix1 b)).toNat < 256)
    (c : Dev nD) : (Gen.dats m hO 0 c).arrAt 4 (Gen.cfgM m hO).N = Gm m c :=
  (Gen.dats m hO 0 c).arrAt_eq_of_cover 4 (Gm m c) (fun t _ => flushed_eq m hO hids c t) (KPoint.cover (Gen.adm m hO))

theorem run (m : (ℓ : Loc nD τ sig) → Buf (Elt Ideal) ℓ) (ρ : Dev nD → PrngReg) (hO : Gen.Ok (F := Ideal) m)
    (hids : ∀ (c : Dev nD) (b : Fin 4), ((m ((c.tc : Thread nD τ).loc main_arg1)) (ix1 b)).toNat < 256) :
    θ_run (defs (F := Ideal)) (onTc (τ := τ) (main (F := Ideal))) ⟨m, fun _ => 0, ρ⟩ (fun r => ∀ c : Dev nD,
      r.2.mem ((c.tc : Thread nD τ).loc main_v3) = Cert.LayerNorm.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 4).trans (final m hO hids c),
      ((h c).1 0).trans (((Gen.dats m hO 0 c).arrAt_in 0 rfl _).trans ((Gen.A_eq m hO c 0).trans (Gen.V_main_arg0 m c))),
      ((h c).2 main_arg1 (by decide : main_arg1 ∈ Pipeline.restRefs sig spec0)).trans (Gen.V_main_arg1 m c),
      ((h c).2 main_arg2 (by decide : main_arg2 ∈ Pipeline.restRefs sig spec0)).trans (Gen.V_main_arg2 m c),
      ((h c).2 main_arg3 (by decide : main_arg3 ∈ Pipeline.restRefs sig spec0)).trans (Gen.V_main_arg3 m c),
      ((h c).2 main_arg4 (by decide : main_arg4 ∈ Pipeline.restRefs sig spec0)).trans (Gen.V_main_arg4 m c)⟩)
    (Gen.run_main m ρ hO)

end Cert.KernelIdeal.KValue

end
-- ==== Proof.RTerm.lean ====
/-
  The reference program's result as one pure term of its five argument arrays, cut into stages:
  the looked-up table rows (negative ids moved up by 256, a row of the "not a number" word where the id is
  still outside 0..255, otherwise the gathered row), the enhanced array, the per-row mean, the centred
  array, the per-row variance, the normalised array, and the affine output.
-/
import proofs.«105337_g6193342840941_cont_9to1c4b_532_26_alg».proof.Proof.Gen.ReferenceIdeal

noncomputable section

namespace Cert.ReferenceIdeal.RValue

open Cert.ReferenceIdeal Idealize.ShloMosaic Facts₀

variable {F : FTy → Type} [FloatOps F]

/-- The ids with 256 added where negative. -/
def wrapIds (ids : IVec S4 32) : IVec S4 32 :=
  select (cmpi .slt ids (broadcastInDim S4 ![] bcast_S_S4 (constantI S_ 32 0#32)))
    (addi ids (broadcastInDim S4 ![] bcast_S_S4 (constantI S_ 32 256#32))) ids

/-- The wrapped ids as a column of start indices. -/
def idCol (ids : IVec S4 32) : IVec S4x1 32 := broadcastInDim S4x1 ![0] bcast_S4_S4x1_0 (wrapIds ids)

/-- Per id: is the wrapped id inside 0..255. -/
def idOk (ids : IVec S4 32) : IVec S4 1 :=
  Host.reduce IntOp.andi
    (andi (cmpi .sge (idCol ids) (broadcastInDim S4x1 ![] bcast_S_S4x1 (constantI S_ 32 0#32)))
      (cmpi .sle (idCol ids) (broadcastInDim S4x1 ![0, 1] bcast_S1x1_S4x1_0_1
        (broadcastInDim S1x1 ![1] bcast_S1_S1x1_1 (constantI S1 32 255#32)))))
    (constantI S_ 1 1#1) reducesTo_S4x1_S4_d1 h_S_

/-- The looked-up rows: the gathered row where the id is inside, the "not a number" word elsewhere. -/
def takeRows (emb : FVec F S256x1024 .f32) (ids : IVec S4 32) : FVec F S4x1024 .f32 :=
  select (broadcastInDim S4x1024 ![0] bcast_S4_S4x1024_0 (idOk ids))
    (Host.gather gather_S256x1024_S4x1_S4x1024_1_0_n_n_0_1_11024 emb (idCol ids))
    (broadcastInDim S4x1024 ![] bcast_S_S4x1024 (constant S_ .f32 0x7FC00000#32))

/-- The enhanced array: features plus the looked-up row, repeated along the sequence axis. -/
def enhanced (feat : FVec F S4x8192x1024 .f32) (ids : IVec S4 32) (emb : FVec F S256x1024 .f32) : FVec F S4x8192x1024 .f32 :=
  addf feat (broadcastInDim S4x8192x1024 ![0, 1, 2] bcast_S4x1x1024_S4x8192x1024_0_1_2
    (broadcastInDim S4x1x1024 ![0, 2] bcast_S4x1024_S4x1x1024_0_2 (takeRows emb ids)))

/-- A per-row sum divided by 1024, kept as a column. -/
def rowMean (x : FVec F S4x8192x1024 .f32) : FVec F S4x8192x1 .f32 :=
  Host.divf
    (broadcastInDim S4x8192x1 ![0, 1] bcast_S4x8192_S4x8192x1_0_1
      (Host.reduceAdd x (constant S_ .f32 0x00000000#32) reducesTo_S4x8192x1024_S4x8192_d2 h_S_))
    (broadcastInDim S4x8192x1 ![] bcast_S_S4x8192x1 (constant S_ .f32 0x44800000#32))

/-- The array minus its per-row mean. -/
def centred (x : FVec F S4x8192x1024 .f32) : FVec F S4x8192x1024 .f32 :=
  subf x (broadcastInDim S4x8192x1024 ![0, 1, 2] bcast_S4x8192x1_S4x8192x1024_0_1_2 (rowMean x))

/-- The per-row variance: the mean of the squared centred entries. -/
def rowVar (x : FVec F S4x8192x1024 .f32) : FVec F S4x8192x1 .f32 :=
  rowMean (mulf (centred x) (centred x))

/-- The centred array divided by the square root of variance plus epsilon. -/
def normed (x : FVec F S4x8192x1024 .f32) : FVec F S4x8192x1024 .f32 :=
  Host.divf (centred x) (broadcastInDim S4x8192x1024 ![0, 1, 2] bcast_S4x8192x1_S4x8192x1024_0_1_2
    (Host.sqrt (addf (rowVar x) (broadcastInDim S4x8192x1 ![] bcast_S_S4x8192x1 (constant S_ .f32 0x3727C5AC#32)))))

/-- A vector over the model axis repeated over batch and sequence. -/
def overRows (v : FVec F S1024 .f32) : FVec F S4x8192x1024 .f32 :=
  broadcastInDim S4x8192x1024 ![0, 1, 2] bcast_S1x1x1024_S4x8192x1024_0_1_2
    (broadcastInDim S1x1x1024 ![2] bcast_S1024_S1x1x1024_2 v)

/-- The reference's result. -/
def refTerm (feat : FVec F S4x8192x1024 .f32) (ids : IVec S4 32) (emb : FVec F S256x1024 .f32)
    (γ β : FVec F S1024 .f32) : FVec F S4x8192x1024 .f32 :=
  addf (mulf (normed (enhanced feat ids emb)) (overRows γ)) (overRows β)

end Cert.ReferenceIdeal.RValue

end
-- ==== Proof.LibCallBuf.lean ====
/-
  A value handed to a called function's typed buffer and read back from it is the value: the two transports along the
  buffer's type equation cancel.
-/
import Idealize.ShloMosaic.Lib.StableHlo

noncomputable section

namespace Cert.LibCallBuf

open Idealize.ShloMosaic Idealize.ShloMosaic.StableHlo

/-- Written into a typed reference's buffer and read back, contents are unchanged. -/
theorem ofBuf_toBuf {sig : RefSig} {Val : EltTy → Type} {T : BufTy} (x : TRef sig T) (v : T.Contents Val) :
    x.ofBuf (x.toBuf v) = v := by
  show cast _ (cast _ v) = v
  rw [cast_cast]
  exact cast_eq _ _

end Cert.LibCallBuf

end
-- ==== Proof.RRun.lean ====
/-
  The reference program's run, written out: the called lookup function's operations listed inline at the call
  site (its own nested call's one selection among them), then the main function's operations; every weakly fair
  execution terminates with the result buffer at the staged term of the five argument arrays, and the arguments
  unchanged.
-/
import proofs.«105337_g6193342840941_cont_9to1c4b_532_26_alg».proof.Proof.RTerm
import proofs.«105337_g6193342840941_cont_9to1c4b_532_26_alg».proof.Proof.LibCallBuf
import Idealize.ShloMosaic.Lib.StableHlo.Run

noncomputable section

namespace Cert.ReferenceIdeal.RValue

open Cert.ReferenceIdeal Idealize.ShloMosaic Idealize.ShloMosaic.TcCoe Idealize.SL.Sem Idealize.ShloMosaic.StableHlo Facts₀

variable {F : FTy → Type} [FloatOps F]

/-- The program's 55 operations in order, the two calls unfolded: the lookup function's 23 (its nested call's
    selection the seventh), then the main function's 32. -/
abbrev ops : List (HloOp τ sig (Elt F)) :=
  [
    TRef.nullary main_call0.c (constantI S_ 32 0#32),
    TRef.unary main_call0.c main_call0.v0 (broadcastInDim S4 ![] bcast_S_S4),
    TRef.binary (.of main_arg1) main_call0.v0 main_call0.v1 (cmpi .slt),
    TRef.nullary main_call0.c_0 (constantI S_ 32 256#32),
    TRef.unary main_call0.c_0 main_call0.v2 (broadcastInDim S4 ![] bcast_S_S4),
    TRef.binary (.of main_arg1) main_call0.v2 main_call0.v3 addi,
    TRef.ternary main_call0.v1 main_call0.v3 (.of main_arg1) main_call0.call0.v0 select,
    TRef.unary main_call0.call0.v0 main_call0.v5 (broadcastInDim S4x1 ![0] bcast_S4_S4x1_0),
    TRef.nullary main_call0.c_1 (constantI S1 32 255#32),
    TRef.nullary main_call0.c_2 (constantI S_ 32 0#32),
    TRef.unary main_call0.c_2 main_call0.v6 (broadcastInDim S4x1 ![] bcast_S_S4x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4x1 ![0, 1] bcast_S1x1_S4x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x1_S4_d1 h_S_),
    TRef.binary (.of main_arg2) main_call0.v5 main_call0.v13 (fun x i => Host.gather gather_S256x1024_S4x1_S4x1024_1_0_n_n_0_1_11024 x i),
    TRef.unary main_call0.v12 main_call0.v14 (broadcastInDim S4x1024 ![0] bcast_S4_S4x1024_0),
    TRef.nullary main_call0.cst (constant S_ .f32 0x7FC00000#32),
    TRef.unary main_call0.cst main_call0.v15 (broadcastInDim S4x1024 ![] bcast_S_S4x1024),
    TRef.ternary main_call0.v14 main_call0.v13 main_call0.v15 main_call0.v16 select,
    unary main_v0 main_v1 (broadcastInDim S4x1x1024 ![0, 2] bcast_S4x1024_S4x1x1024_0_2 : (⟨S4x1024, .f32⟩ : BufTy).Contents (Elt F) → (⟨S4x1x1024, .f32⟩ : BufTy).Contents (Elt F)),
    unary main_v1 main_v2 (broadcastInDim S4x8192x1024 ![0, 1, 2] bcast_S4x1x1024_S4x8192x1024_0_1_2 : (⟨S4x1x1024, .f32⟩ : BufTy).Contents (Elt F) → (⟨S4x8192x1024, .f32⟩ : BufTy).Contents (Elt F)),
    binary main_arg0 main_v2 main_v3 (addf : (⟨S4x8192x1024, .f32⟩ : BufTy).Contents (Elt F) → (⟨S4x8192x1024, .f32⟩ : BufTy).Contents (Elt F) → (⟨S4x8192x1024, .f32⟩ : BufTy).Contents (Elt F)),
    nullary main_cst (constant S_ .f32 0x00000000#32),
    binary main_v3 main_cst main_v4 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v4 main_v5 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_0 (constant S_ .f32 0x44800000#32),
    unary main_cst_0 main_v6 (broadcastInDim S4x8192x1 ![] bcast_S_S4x8192x1 : (⟨S_, .f32⟩ : BufTy).Contents (Elt F) → (⟨S4x8192x1, .f32⟩ : BufTy).Contents (Elt F)),
    binary main_v5 main_v6 main_v7 (Host.divf : (⟨S4x8192x1, .f32⟩ : BufTy).Contents (Elt F) → (⟨S4x8192x1, .f32⟩ : BufTy).Contents (Elt F) → (⟨S4x8192x1, .f32⟩ : BufTy).Contents (Elt F)),
    unary main_v7 main_v8 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v3 main_v8 main_v9 (subf : (⟨S4x8192x1024, .f32⟩ : BufTy).Contents (Elt F) → (⟨S4x8192x1024, .f32⟩ : BufTy).Contents (Elt F) → (⟨S4x8192x1024, .f32⟩ : BufTy).Contents (Elt F)),
    binary main_v9 main_v9 main_v10 (mulf : (⟨S4x8192x1024, .f32⟩ : BufTy).Contents (Elt F) → (⟨S4x8192x1024, .f32⟩ : BufTy).Contents (Elt F) → (⟨S4x8192x1024, .f32⟩ : BufTy).Contents (Elt F)),
    nullary main_cst_1 (constant S_ .f32 0x00000000#32),
    binary main_v10 main_cst_1 main_v11 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v11 main_v12 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_2 (constant S_ .f32 0x44800000#32),
    unary main_cst_2 main_v13 (broadcastInDim S4x8192x1 ![] bcast_S_S4x8192x1 : (⟨S_, .f32⟩ : BufTy).Contents (Elt F) → (⟨S4x8192x1, .f32⟩ : BufTy).Contents (Elt F)),
    binary main_v12 main_v13 main_v14 (Host.divf : (⟨S4x8192x1, .f32⟩ : BufTy).Contents (Elt F) → (⟨S4x8192x1, .f32⟩ : BufTy).Contents (Elt F) → (⟨S4x8192x1, .f32⟩ : BufTy).Contents (Elt F)),
    unary main_v7 main_v15 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v3 main_v15 main_v16 (subf : (⟨S4x8192x1024, .f32⟩ : BufTy).Contents (Elt F) → (⟨S4x8192x1024, .f32⟩ : BufTy).Contents (Elt F) → (⟨S4x8192x1024, .f32⟩ : BufTy).Contents (Elt F)),
    nullary main_cst_3 (constant S_ .f32 0x3727C5AC#32),
    unary main_cst_3 main_v17 (broadcastInDim S4x8192x1 ![] bcast_S_S4x8192x1 : (⟨S_, .f32⟩ : BufTy).Contents (Elt F) → (⟨S4x8192x1, .f32⟩ : BufTy).Contents (Elt F)),
    binary main_v14 main_v17 main_v18 (addf : (⟨S4x8192x1, .f32⟩ : BufTy).Contents (Elt F) → (⟨S4x8192x1, .f32⟩ : BufTy).Contents (Elt F) → (⟨S4x8192x1, .f32⟩ : BufTy).Contents (Elt F)),
    unary main_v18 main_v19 (Host.sqrt : (⟨S4x8192x1, .f32⟩ : BufTy).Contents (Elt F) → (⟨S4x8192x1, .f32⟩ : BufTy).Contents (Elt F)),
    unary main_v19 main_v20 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v16 main_v20 main_v21 (Host.divf : (⟨S4x8192x1024, .f32⟩ : BufTy).Contents (Elt F) → (⟨S4x8192x1024, .f32⟩ : BufTy).Contents (Elt F) → (⟨S4x8192x1024, .f32⟩ : BufTy).Contents (Elt F)),
    unary main_arg3 main_v22 (broadcastInDim S1x1x1024 ![2] bcast_S1024_S1x1x1024_2 : (⟨S1024, .f32⟩ : BufTy).Contents (Elt F) → (⟨S1x1x1024, .f32⟩ : BufTy).Contents (Elt F)),
    unary main_v22 main_v23 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v21 main_v23 main_v24 (mulf : (⟨S4x8192x1024, .f32⟩ : BufTy).Contents (Elt F) → (⟨S4x8192x1024, .f32⟩ : BufTy).Contents (Elt F) → (⟨S4x8192x1024, .f32⟩ : BufTy).Contents (Elt F)),
    unary main_arg4 main_v25 (broadcastInDim S1x1x1024 ![2] bcast_S1024_S1x1x1024_2 : (⟨S1024, .f32⟩ : BufTy).Contents (Elt F) → (⟨S1x1x1024, .f32⟩ : BufTy).Contents (Elt F)),
    unary main_v25 main_v26 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v24 main_v26 main_v27 (addf : (⟨S4x8192x1024, .f32⟩ : BufTy).Contents (Elt F) → (⟨S4x8192x1024, .f32⟩ : BufTy).Contents (Elt F) → (⟨S4x8192x1024, .f32⟩ : BufTy).Contents (Elt F)) ]

set_option maxRecDepth 2048 in
/-- The main function is that straight line: the called functions' definitions unfolded at their calls, and the
    sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- The result buffer after the line, from any contents: the staged term of the argument buffers' contents. -/
theorem out_eq (V : Valuation τ sig (Elt F)) :
    after ops V (Proc.devRef .tc main_v27)
      = refTerm (F := F) (V (Proc.devRef .tc main_arg0)) (V (Proc.devRef .tc main_arg1)) (V (Proc.devRef .tc main_arg2))
          (V (Proc.devRef .tc main_arg3)) (V (Proc.devRef .tc main_arg4)) := by
  after_results_simp
  simp only [Cert.LibCallBuf.ofBuf_toBuf]
  unfold refTerm normed rowVar centred rowMean enhanced takeRows idOk idCol wrapIds overRows
  rfl

/-- Argument 0's buffer is written by no operation of the line. -/
theorem arg0_eq (V : Valuation τ sig (Elt F)) :
    after ops V (Proc.devRef .tc main_arg0) = V (Proc.devRef .tc main_arg0) := by
  after_results_simp

/-- Argument 1's buffer is written by no operation of the line. -/
theorem arg1_eq (V : Valuation τ sig (Elt F)) :
    after ops V (Proc.devRef .tc main_arg1) = V (Proc.devRef .tc main_arg1) := by
  after_results_simp

/-- Argument 2's buffer is written by no operation of the line. -/
theorem arg2_eq (V : Valuation τ sig (Elt F)) :
    after ops V (Proc.devRef .tc main_arg2) = V (Proc.devRef .tc main_arg2) := by
  after_results_simp

/-- Argument 3's buffer is written by no operation of the line. -/
theorem arg3_eq (V : Valuation τ sig (Elt F)) :
    after ops V (Proc.devRef .tc main_arg3) = V (Proc.devRef .tc main_arg3) := by
  after_results_simp

/-- Argument 4's buffer is written by no operation of the line. -/
theorem arg4_eq (V : Valuation τ sig (Elt F)) :
    after ops V (Proc.devRef .tc main_arg4) = V (Proc.devRef .tc main_arg4) := by
  after_results_simp

/-- On every device, for any float values, from any memory with zero counters: every weakly fair execution of
    the main function terminates with the result buffer at the staged term of the arguments' launch contents and
    the five arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v27) = refTerm (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v27).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.ReferenceIdeal.RValue

end
-- ==== Proof.LibBatch.lean ====
/-
  Host layouts and sums of batched arrays read at an index.

  * `[A, B]` laid out as `[A, B, 1]` and as `[A, 1, B]`; `[A, B, 1]` repeated along a last axis of `C` lanes and
    `[A, 1, B]` repeated down a middle axis of `C` rows; a scalar repeated over any shape;
  * the host's float sum over the last axis of `[A, B, C]`: the initial value plus the sum over the coordinate;
  * a four-piece concatenation along the last axis of equal pieces of `D` lanes: entry `(a, b, n * D + d)` is piece `n` at
    `(a, b, d)`.
-/
import Idealize.ShloMosaic.Lib.Pipeline.Value
import Idealize.ShloMosaic.Lib.ValueIdx
import Idealize.ShloMosaic.PureOps.Ideal.Laws

noncomputable section

open scoped BigOperators

namespace Cert.LibBatch

open Idealize.ShloMosaic Idealize.ShloMosaic.ValueIdx

variable {α : Type}

/-- `[A, B]` laid out as `[A, B, 1]` reads, at `(a, b, u)`, the array at `(a, b)`. -/
theorem broadcastInDim_ab_ab1_apply {A B : ℕ} (x : (⟨2, ![A, B]⟩ : Shape).Idx → α)
    (h : (⟨2, ![A, B]⟩ : Shape).BroadcastsInDim ⟨3, ![A, B, 1]⟩ ![0, 1]) (a : Fin A) (b : Fin B) (u : Fin 1) :
    broadcastInDim ⟨3, ![A, B, 1]⟩ ![0, 1] h x (ix3 a b u) = x (ix2 a b) := by
  refine broadcastInDim_apply ![0, 1] h x (ix3 a b u) (ix2 a b) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl

/-- `[A, B]` laid out as `[A, 1, B]` reads, at `(a, u, b)`, the array at `(a, b)`. -/
theorem broadcastInDim_ab_a1b_apply {A B : ℕ} (x : (⟨2, ![A, B]⟩ : Shape).Idx → α)
    (h : (⟨2, ![A, B]⟩ : Shape).BroadcastsInDim ⟨3, ![A, 1, B]⟩ ![0, 2]) (a : Fin A) (u : Fin 1) (b : Fin B) :
    broadcastInDim ⟨3, ![A, 1, B]⟩ ![0, 2] h x (ix3 a u b) = x (ix2 a b) := by
  refine broadcastInDim_apply ![0, 2] h x (ix3 a u b) (ix2 a b) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl

/-- `[A, B, 1]` repeated along `C` lanes reads, at `(a, b, c)`, the array at `(a, b, 0)`. -/
theorem broadcastInDim_ab1_abc_apply {A B C : ℕ} (v : (⟨3, ![A, B, 1]⟩ : Shape).Idx → α)
    (h : (⟨3, ![A, B, 1]⟩ : Shape).BroadcastsInDim ⟨3, ![A, B, C]⟩ ![0, 1, 2]) (a : Fin A) (b : Fin B) (c : Fin C) :
    broadcastInDim ⟨3, ![A, B, C]⟩ ![0, 1, 2] h v (ix3 a b c) = v (ix3 a b (0 : Fin 1)) := by
  refine broadcastInDim_apply ![0, 1, 2] h v (ix3 a b c) (ix3 a b (0 : Fin 1)) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ => rfl

/-- `[A, 1, B]` repeated down `C` rows reads, at `(a, c, b)`, the array at `(a, 0, b)`. -/
theorem broadcastInDim_a1b_acb_apply {A B C : ℕ} (v : (⟨3, ![A, 1, B]⟩ : Shape).Idx → α)
    (h : (⟨3, ![A, 1, B]⟩ : Shape).BroadcastsInDim ⟨3, ![A, C, B]⟩ ![0, 1, 2]) (a : Fin A) (c : Fin C) (b : Fin B) :
    broadcastInDim ⟨3, ![A, C, B]⟩ ![0, 1, 2] h v (ix3 a c b) = v (ix3 a (0 : Fin 1) b) := by
  refine broadcastInDim_apply ![0, 1, 2] h v (ix3 a c b) (ix3 a (0 : Fin 1) b) fun ax => ?_
  match ax with
  | ⟨0, _⟩ =>
    show a.val = if A = 1 then 0 else a.val
    split
    · have := a.isLt; omega
    · rfl
  | ⟨1, _⟩ => rfl
  | ⟨2, _⟩ =>
    show b.val = if B = 1 then 0 else b.val
    split
    · have := b.isLt; omega
    · rfl

/-- A scalar repeated over a shape reads the scalar everywhere. -/
theorem broadcastInDim_scalar_apply {t : Shape} (x : (⟨0, ![]⟩ : Shape).Idx → α)
    (dims : Fin 0 → Fin t.rank) (h : (⟨0, ![]⟩ : Shape).BroadcastsInDim t dims) (i : t.Idx) :
    broadcastInDim t dims h x i = x ix0 :=
  broadcastInDim_apply dims h x i ix0 fun ax => ax.elim0

/-- Reducing `[A, B, C]` over its last axis: the source index over `(a, b)` with coordinate `k` is `(a, b, k)`. -/
theorem lift_last3 {A B C : ℕ} (h : (⟨3, ![A, B, C]⟩ : Shape).Reduces [2] ⟨2, ![A, B]⟩) (a : Fin A) (b : Fin B) (k : Fin C) :
    h.lift (ix2 a b) k = ix3 a b k :=
  funext fun d => Fin.ext (by
    match d with
    | ⟨0, _⟩ => rfl
    | ⟨1, _⟩ => rfl
    | ⟨2, _⟩ => rfl)

/-- The host's float sum over the last axis of `[A, B, C]`: entry `(a, b)` is the initial value plus the sum over `k` of
    `(a, b, k)`. -/
theorem hostReduceAdd_last3_apply {A B C : ℕ} (x : (⟨3, ![A, B, C]⟩ : Shape).Idx → EReal) (init : EReal)
    (h' : (⟨3, ![A, B, C]⟩ : Shape).ReducesTo [2] ⟨2, ![A, B]⟩) (h : (⟨3, ![A, B, C]⟩ : Shape).Reduces [2] ⟨2, ![A, B]⟩)
    (a : Fin A) (b : Fin B) :
    Ideal.hostReduceAdd h' x init (ix2 a b) = init + ∑ k : Fin C, x (ix3 a b k) :=
  (Ideal.hostReduceAdd_single h' h x init (ix2 a b)).trans
    (congrArg (init + ·) (Finset.sum_congr rfl fun k _ => congrArg x (lift_last3 h a b k)))

/-- Four equal pieces of `D` lanes joined along the last axis: entry `(a, b, n * D + d)` of the join is piece `n` at
    `(a, b, d)`. -/
theorem concatenate4_last_apply {A B D T : ℕ} (x0 x1 x2 x3 : (⟨3, ![A, B, D]⟩ : Shape).Idx → α)
    (h : Shape.Concatenates (([⟨⟨3, ![A, B, D]⟩, x0⟩, ⟨⟨3, ![A, B, D]⟩, x1⟩, ⟨⟨3, ![A, B, D]⟩, x2⟩, ⟨⟨3, ![A, B, D]⟩, x3⟩] :
      List ((s : Shape) × (s.Idx → α))).map (·.1)) ⟨3, ![A, B, T]⟩ 2)
    (a : Fin A) (b : Fin B) (d : Fin D) (c : Fin T) (n : Fin 4) (hc : c.val = n.val * D + d.val) :
    concatenate ⟨3, ![A, B, T]⟩ 2 [⟨⟨3, ![A, B, D]⟩, x0⟩, ⟨⟨3, ![A, B, D]⟩, x1⟩, ⟨⟨3, ![A, B, D]⟩, x2⟩, ⟨⟨3, ![A, B, D]⟩, x3⟩] h (ix3 a b c)
      = (![x0, x1, x2, x3] n) (ix3 a b d) := by
  have hoff : ∀ ax : Fin 3, Fin.cast (rfl : (3 : ℕ) = 3) ax ≠ (2 : Fin 3) →
      ((ix3 a b d) ax).val = ((ix3 a b c) (Fin.cast rfl ax)).val := by
    intro ax hax
    match ax with
    | ⟨0, _⟩ => rfl
    | ⟨1, _⟩ => rfl
    | ⟨2, _⟩ => exact absurd rfl hax
  match n with
  | ⟨0, _⟩ =>
    have hc' : c.val = 0 * D + d.val := hc
    refine concatenate_apply_piece 2 _ h _ 0 (Nat.succ_pos _) _ _ rfl rfl _ rfl (ix3 a b d) hoff ?_
    show 0 + d.val = c.val
    omega
  | ⟨1, _⟩ =>
    have hc' : c.val = 1 * D + d.val := hc
    refine concatenate_apply_piece 2 _ h _ 1 (by show 1 < 4; omega) _ _ rfl rfl _ rfl (ix3 a b d) hoff ?_
    show D + 0 + d.val = c.val
    omega
  | ⟨2, _⟩ =>
    have hc' : c.val = 2 * D + d.val := hc
    refine concatenate_apply_piece 2 _ h _ 2 (by show 2 < 4; omega) _ _ rfl rfl _ rfl (ix3 a b d) hoff ?_
    show D + (D + 0) + d.val = c.val
    omega
  | ⟨3, _⟩ =>
    have hc' : c.val = 3 * D + d.val := hc
    refine concatenate_apply_piece 2 _ h _ 3 (by show 3 < 4; omega) _ _ rfl rfl _ rfl (ix3 a b d) hoff ?_
    show D + (D + (D + 0)) + d.val = c.val
    omega

end Cert.LibBatch

end
-- ==== Proof.LibGraph.lean ====
/-
  Rows of a table picked by an integer array and added back into rows: the host's gather of whole rows (and of single
  entries of a vector) read at an index, and the host's accumulating scatter of rows (and of entries) read at an index,
  at the exact extended-real instance. The picked row is the start index read as a signed integer and clamped into the
  table; an update lands on the row its index names when that row exists and is dropped otherwise.
-/
import Idealize.ShloMosaic.Lib.ValueIdx
import Idealize.ShloMosaic.PureOps.Ideal.Laws

noncomputable section

open scoped BigOperators

namespace Cert.LibGraph

open Idealize.ShloMosaic Idealize.ShloMosaic.ValueIdx

variable {α : Type}

theorem h10 : (1 : Fin 2) ≠ 0 := by decide

/-- Dimension numbers of picking whole rows of an `[N, C]` table at `[E, 1]` start indices. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` picks: its start index read signed, clamped into `[0, N - 1]`. -/
def rowOf (N : Nat) (hN : 0 < N) {E w : Nat} (idx : IVec ⟨2, ![E, 1]⟩ w) (e : Fin E) : Fin N :=
  ⟨min (idx (ix2 e (0 : Fin 1))).toInt.toNat (N - 1), by omega⟩

theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowsDims N C E wf) x idx (ix2 e f) = x (ix2 (rowOf N hN idx e) f) := by
  unfold Host.gather
  congr 1
  funext a
  refine Fin.ext ?_
  show (rowsDims N C E wf).start (ix2 e f) idx a + (rowsDims N C E wf).batchCoord (ix2 e f) a + (rowsDims N C E wf).offCoord (ix2 e f) a = _
  rw [GatherDims.batchCoord_eq_zero _ _ _ List.not_mem_nil]
  match a with
  | ⟨0, _⟩ =>
    show (rowsDims N C E wf).start (ix2 e f) idx (0 : Fin 2) + 0 + (rowsDims N C E wf).offCoord (ix2 e f) (0 : Fin 2) = min (idx (ix2 e (0 : Fin 1))).toInt.toNat (N - 1)
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx (ix2 e f) ⟨List.idxOf (0 : Fin 2) (rowsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N C E wf).start (ix2 e f) idx (1 : Fin 2) + 0 + (rowsDims N C E wf).offCoord (ix2 e f) (1 : Fin 2) = f.val
    unfold GatherDims.start
    rw [dif_neg (show (1 : Fin 2) ∉ (rowsDims N C E wf).startIndexMap from fun h => h10 (List.mem_singleton.mp h))]
    unfold GatherDims.offCoord
    rw [dif_pos (show (1 : Fin 2) ∈ (rowsDims N C E wf).sKept from (GatherDims.mem_sKept _ _).mpr ⟨fun h => h10 (List.mem_singleton.mp h), List.not_mem_nil⟩)]
    have hk : (rowsDims N C E wf).sKept = [(1 : Fin 2)] := rfl
    have key : ∀ (l : List (Fin 2)) (hl : l = [1]) (hp : List.idxOf (1 : Fin 2) l < [(1 : Fin 2)].length),
        ([(1 : Fin 2)])[List.idxOf (1 : Fin 2) l]'hp = 1 := by
      intro l hl hp; subst hl; rfl
    refine (congrArg (fun z : Fin 2 => 0 + 0 + (ix2 e f z).val) (key _ hk _)).trans ?_
    show 0 + 0 + f.val = f.val
    omega

/-- Dimension numbers of picking single entries of an `[N]` vector at `[E, 1]` start indices. -/
abbrev entriesDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The entry edge `e` picks is the vector's at the same clamped start index. -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entriesDims N E wf) x idx (ix1 e) = x (ix1 (rowOf N hN idx e)) := by
  unfold Host.gather
  congr 1
  funext a
  obtain rfl : a = 0 := Subsingleton.elim _ _
  refine Fin.ext ?_
  show (entriesDims N E wf).start (ix1 e) idx 0 + (entriesDims N E wf).batchCoord (ix1 e) 0 + (entriesDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N E wf).startIndexMap from List.mem_singleton.mpr rfl)]
  have hsi : (entriesDims N E wf).siIdx (ix1 e) ⟨List.idxOf (0 : Fin 1) (entriesDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Adding rows back: the accumulating scatter -/

/-- Dimension numbers of adding `[E, C]` update rows into an `[N, C]` table at `[E, 1]` row indices. -/
abbrev addRowsDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update entry `(e, f)` lands on table entry `(n, f')` exactly when edge `e`'s index, read signed, is `n`, and the
    lanes agree. -/
theorem resultIdx_rows {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) (n : Fin N) (f' : Fin C) :
    (addRowsDims N C E wf).resultIdx? (ix2 e f) idx = some (ix2 n f')
      ↔ (idx (ix2 e (0 : Fin 1))).toInt = (n.val : Int) ∧ f = f' := by
  have hs0 : (addRowsDims N C E wf).start (ix2 e f) idx (0 : Fin 2) = (idx (ix2 e (0 : Fin 1))).toInt := by
    unfold ScatterDims.start
    rw [dif_pos (show (0 : Fin 2) ∈ (addRowsDims N C E wf).scatterDimsToOperandDims from List.mem_singleton.mpr rfl)]
    have hsi : (addRowsDims N C E wf).siIdx (ix2 e f) ⟨List.idxOf (0 : Fin 2) (addRowsDims N C E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (addRowsDims N C E wf).start (ix2 e f) idx (1 : Fin 2) = 0 := by
    unfold ScatterDims.start
    rw [dif_neg (fun h => h10 (List.mem_singleton.mp h))]
  have hk : (addRowsDims N C E wf).sKept = [(1 : Fin 2)] := rfl
  have hw0 : (addRowsDims N C E wf).window (ix2 e f) (0 : Fin 2) = 0 := by
    unfold ScatterDims.window
    rw [dif_neg (by rw [hk]; exact fun h => h10 (List.mem_singleton.mp h).symm)]
  have hw1 : (addRowsDims N C E wf).window (ix2 e f) (1 : Fin 2) = f.val := by
    unfold ScatterDims.window
    rw [dif_pos (by rw [hk]; exact List.mem_singleton.mpr rfl)]
    have key : ∀ (l : List (Fin 2)) (hl : l = [1]) (hp : List.idxOf (1 : Fin 2) l < [(1 : Fin 2)].length),
        ([(1 : Fin 2)])[List.idxOf (1 : Fin 2) l]'hp = 1 := by
      intro l hl hp; subst hl; rfl
    exact congrArg (fun z : Fin 2 => (ix2 e f z).val) (key _ hk _)
  unfold ScatterDims.resultIdx?
  split
  · rename_i h
    rw [Option.some.injEq]
    constructor
    · intro hg
      have h0 := congrArg (fun g : (⟨2, ![N, C]⟩ : Shape).Idx => (g (0 : Fin 2)).val) hg
      have h1 := congrArg (fun g : (⟨2, ![N, C]⟩ : Shape).Idx => (g (1 : Fin 2)).val) hg
      have b0 := h (0 : Fin 2)
      change ((addRowsDims N C E wf).start (ix2 e f) idx (0 : Fin 2) + ((addRowsDims N C E wf).window (ix2 e f) (0 : Fin 2) : Int)).toNat = n.val at h0
      change ((addRowsDims N C E wf).start (ix2 e f) idx (1 : Fin 2) + ((addRowsDims N C E wf).window (ix2 e f) (1 : Fin 2) : Int)).toNat = f'.val at h1
      rw [hs0, hw0] at h0 b0
      rw [hs1, hw1] at h1
      exact ⟨by omega, Fin.ext (by omega)⟩
    · rintro ⟨hz, rfl⟩
      funext a; refine Fin.ext ?_
      match a with
      | ⟨0, _⟩ =>
        show ((addRowsDims N C E wf).start (ix2 e f) idx (0 : Fin 2) + ((addRowsDims N C E wf).window (ix2 e f) (0 : Fin 2) : Int)).toNat = n.val
        rw [hs0, hw0, hz]; omega
      | ⟨1, _⟩ =>
        show ((addRowsDims N C E wf).start (ix2 e f) idx (1 : Fin 2) + ((addRowsDims N C E wf).window (ix2 e f) (1 : Fin 2) : Int)).toNat = f.val
        rw [hs1, hw1]; omega
  · rename_i h
    constructor
    · intro hh; exact absurd hh (by simp)
    · rintro ⟨hz, rfl⟩
      exfalso; apply h; intro a
      match a with
      | ⟨0, _⟩ =>
        show 0 ≤ (addRowsDims N C E wf).start (ix2 e f) idx (0 : Fin 2) + ((addRowsDims N C E wf).window (ix2 e f) (0 : Fin 2) : Int)
          ∧ (addRowsDims N C E wf).start (ix2 e f) idx (0 : Fin 2) + ((addRowsDims N C E wf).window (ix2 e f) (0 : Fin 2) : Int) < (N : Int)
        rw [hs0, hw0, hz]; have := n.isLt; constructor <;> omega
      | ⟨1, _⟩ =>
        show 0 ≤ (addRowsDims N C E wf).start (ix2 e f) idx (1 : Fin 2) + ((addRowsDims N C E wf).window (ix2 e f) (1 : Fin 2) : Int)
          ∧ (addRowsDims N C E wf).start (ix2 e f) idx (1 : Fin 2) + ((addRowsDims N C E wf).window (ix2 e f) (1 : Fin 2) : Int) < (C : Int)
        rw [hs1, hw1]; have := f.isLt; constructor <;> omega

/-- THE ROW SCATTER AT AN ENTRY: the table's entry plus the sum, over the edges whose index names row `n`, of their
    update rows' entries in lane `f`. -/
theorem scatterAdd_rows_apply {N C E w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (f : Fin C) :
    Ideal.hostScatterAdd (addRowsDims N C E wf) x idx upd (ix2 n f)
      = x (ix2 n f) + ∑ e ∈ Finset.univ.filter (fun e : Fin E => (idx (ix2 e (0 : Fin 1))).toInt = (n.val : Int)), upd (ix2 e f) := by
  unfold Ideal.hostScatterAdd
  congr 1
  rw [Finset.sum_filter, sum_idx2, Finset.sum_filter]
  refine Finset.sum_congr rfl fun e _ => ?_
  have hc : ∀ f' : Fin C, ((addRowsDims N C E wf).resultIdx? (ix2 e f') idx = some (ix2 n f))
      ↔ ((idx (ix2 e (0 : Fin 1))).toInt = (n.val : Int) ∧ f' = f) := fun f' => resultIdx_rows wf idx e f' n f
  by_cases hz : (idx (ix2 e (0 : Fin 1))).toInt = (n.val : Int)
  · rw [if_pos hz]
    rw [Finset.sum_congr rfl (fun f' _ => if_congr ((hc f').trans (and_iff_right hz)) rfl rfl)]
    rw [Finset.sum_ite_eq' Finset.univ f (fun f' => upd (ix2 e f')), if_pos (Finset.mem_univ _)]
  · rw [if_neg hz]
    exact Finset.sum_eq_zero fun f' _ => if_neg fun h => hz ((hc f').mp h).1

/-- Dimension numbers of adding `[E]` update entries into an `[N]` vector at `[E, 1]` indices. -/
abbrev addEntriesDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update entry `e` lands on vector entry `n` exactly when its index, read signed, is `n`. -/
theorem resultIdx_entries {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (addEntriesDims N E wf).resultIdx? (ix1 e) idx = some (ix1 n) ↔ (idx (ix2 e (0 : Fin 1))).toInt = (n.val : Int) := by
  have hs0 : (addEntriesDims N E wf).start (ix1 e) idx (0 : Fin 1) = (idx (ix2 e (0 : Fin 1))).toInt := by
    unfold ScatterDims.start
    rw [dif_pos (show (0 : Fin 1) ∈ (addEntriesDims N E wf).scatterDimsToOperandDims from List.mem_singleton.mpr rfl)]
    have hsi : (addEntriesDims N E wf).siIdx (ix1 e) ⟨List.idxOf (0 : Fin 1) (addEntriesDims N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hk : (addEntriesDims N E wf).sKept = [] := rfl
  have hw0 : (addEntriesDims N E wf).window (ix1 e) (0 : Fin 1) = 0 := by
    unfold ScatterDims.window
    rw [dif_neg (by rw [hk]; exact List.not_mem_nil)]
  unfold ScatterDims.resultIdx?
  split
  · rename_i h
    rw [Option.some.injEq]
    constructor
    · intro hg
      have h0 := congrArg (fun g : (⟨1, ![N]⟩ : Shape).Idx => (g (0 : Fin 1)).val) hg
      have b0 := h (0 : Fin 1)
      change ((addEntriesDims N E wf).start (ix1 e) idx (0 : Fin 1) + ((addEntriesDims N E wf).window (ix1 e) (0 : Fin 1) : Int)).toNat = n.val at h0
      rw [hs0, hw0] at h0 b0
      omega
    · intro hz
      funext a; refine Fin.ext ?_
      obtain rfl : a = 0 := Subsingleton.elim _ _
      show ((addEntriesDims N E wf).start (ix1 e) idx (0 : Fin 1) + ((addEntriesDims N E wf).window (ix1 e) (0 : Fin 1) : Int)).toNat = n.val
      rw [hs0, hw0, hz]; omega
  · rename_i h
    constructor
    · intro hh; exact absurd hh (by simp)
    · intro hz
      exfalso; apply h; intro a
      obtain rfl : a = 0 := Subsingleton.elim _ _
      show 0 ≤ (addEntriesDims N E wf).start (ix1 e) idx (0 : Fin 1) + ((addEntriesDims N E wf).window (ix1 e) (0 : Fin 1) : Int)
        ∧ (addEntriesDims N E wf).start (ix1 e) idx (0 : Fin 1) + ((addEntriesDims N E wf).window (ix1 e) (0 : Fin 1) : Int) < (N : Int)
      rw [hs0, hw0, hz]; have := n.isLt; constructor <;> omega

/-- THE ENTRY SCATTER AT AN ENTRY: the vector's entry plus the sum of the updates of the edges whose index names `n`. -/
theorem scatterAdd_entries_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (n : Fin N) :
    Ideal.hostScatterAdd (addEntriesDims N E wf) x idx upd (ix1 n)
      = x (ix1 n) + ∑ e ∈ Finset.univ.filter (fun e : Fin E => (idx (ix2 e (0 : Fin 1))).toInt = (n.val : Int)), upd (ix1 e) := by
  unfold Ideal.hostScatterAdd
  congr 1
  rw [Finset.sum_filter, Finset.sum_filter]
  rw [← Equiv.sum_comp (Equiv.mk (fun e : Fin E => (ix1 e : (⟨1, ![E]⟩ : Shape).Idx)) (fun j => j 0) (fun _ => rfl) (fun j => (eq_ix1 j).symm))]
  refine Finset.sum_congr rfl fun e _ => ?_
  exact if_congr (resultIdx_entries wf idx e n) rfl rfl

/-! ## A nonnegative finite factor moves through a sum -/

/-- A factor that is nonnegative and not `+∞` distributes over any finite sum of extended reals. -/
theorem mul_sum_of_nonneg {ι : Type} (s : Finset ι) (d : EReal) (h0 : 0 ≤ d) (ht : d ≠ ⊤) (a : ι → EReal) :
    d * ∑ i ∈ s, a i = ∑ i ∈ s, d * a i := by
  classical
  induction s using Finset.induction_on with
  | empty => simp
  | insert i s hi ih =>
    rw [Finset.sum_insert hi, Finset.sum_insert hi, EReal.left_distrib_of_nonneg_of_ne_top h0 ht, ih]

/-- The guarded reciprocal square root — `1/√x` where `x` is positive, zero elsewhere — is nonnegative and never `+∞`. -/
theorem guarded_rsqrt (x : EReal) :
    0 ≤ Scalar.select (Ideal.cmp .ogt x (Ideal.ofBits .f32 0x00000000#32)) (Ideal.rsqrt x) (Ideal.ofBits .f32 0x00000000#32)
    ∧ Scalar.select (Ideal.cmp .ogt x (Ideal.ofBits .f32 0x00000000#32)) (Ideal.rsqrt x) (Ideal.ofBits .f32 0x00000000#32) ≠ ⊤ := by
  rw [Ideal.ofBits_zero_f32]
  by_cases hx : (0 : EReal) < x
  · have hb : Ideal.cmp .ogt x 0 = 1#1 := by simp [Ideal.cmp, hx]
    rw [hb, select_one]
    induction x using EReal.rec with
    | bot => exact absurd hx (by simp)
    | top => exact (show (0 : EReal) ≤ 0 ∧ (0 : EReal) ≠ ⊤ from ⟨le_refl _, EReal.zero_ne_top⟩)
    | coe r =>
      have hr : 0 < r := by exact_mod_cast hx
      have h1 : Ideal.rsqrt (r : EReal) = if r < 0 then ⊥ else if r = 0 then ⊤ else (((Real.sqrt r)⁻¹ : ℝ) : EReal) := rfl
      rw [h1, if_neg (not_lt.mpr hr.le), if_neg hr.ne']
      exact ⟨by exact_mod_cast inv_nonneg.mpr (Real.sqrt_nonneg r), EReal.coe_ne_top _⟩
  · have hb : Ideal.cmp .ogt x 0 = 0#1 := by simp [Ideal.cmp, hx]
    rw [hb, select_zero]
    exact ⟨le_refl _, EReal.zero_ne_top⟩

/-! ## Indices wrapped "add the extent when negative" -/

/-- A 32-bit index that is nonnegative as a signed integer passes the wrap unchanged. -/
theorem wrap_of_nonneg (x c : BitVec 32) (h : 0 ≤ x.toInt) : Scalar.select (IntOp.cmpi .slt x 0#32) c x = x := by
  have hb : IntOp.cmpi .slt x 0#32 = 0#1 := by
    show BitVec.ofBool (decide (x.toInt < (0#32 : BitVec 32).toInt)) = 0#1
    rw [BitVec.toInt_zero, decide_eq_false (by omega)]
    rfl
  rw [hb, select_zero]

/-- An edge whose (unwrapped) index, read signed, is the row `n` of the table picks row `n` through the wrapped index. -/
theorem rowOf_of_hit {N E : Nat} (hN : 0 < N) (idxW : IVec ⟨2, ![E, 1]⟩ 32) (e : Fin E) (n : Fin N) (x c : BitVec 32)
    (hW : idxW (ix2 e (0 : Fin 1)) = Scalar.select (IntOp.cmpi .slt x 0#32) c x) (hx : x.toInt = (n.val : Int)) :
    rowOf N hN idxW e = n := by
  refine Fin.ext ?_
  show min (idxW (ix2 e (0 : Fin 1))).toInt.toNat (N - 1) = n.val
  rw [hW, wrap_of_nonneg x c (by omega), hx]
  have := n.isLt
  omega

end Cert.LibGraph

end
-- ==== Proof.RReadTake.lean ====
/-
  The reference's looked-up table rows read at one index.

  An id word w with w.toNat < 256 reads, as a signed integer, the number w.toNat: it is not negative, so the
  "add 256 when negative" wrap leaves it alone; it passes both signed tests 0 <= w and w <= 255, so the
  and-reduce over the one-element axis of the [4, 1] column is the bit 1 and the select keeps the gathered row;
  and the gather of whole rows at the [4, 1] start indices picks the row whose number is the start index read
  signed and clamped into 0..255, which is w.toNat itself.
-/
import proofs.«105337_g6193342840941_cont_9to1c4b_532_26_alg».proof.Proof.RTerm
import proofs.«105337_g6193342840941_cont_9to1c4b_532_26_alg».proof.Proof.Spec
import proofs.«105337_g6193342840941_cont_9to1c4b_532_26_alg».proof.Proof.LibBatch
import proofs.«105337_g6193342840941_cont_9to1c4b_532_26_alg».proof.Proof.LibGraph

noncomputable section

open scoped BigOperators

namespace Cert.ReferenceIdeal.RValue

open Cert.ReferenceIdeal Idealize.ShloMosaic Idealize.ShloMosaic.ValueIdx Facts₀

/-- A 32-bit word holding a number below 256 reads, signed, as that number. -/
theorem toInt_of_lt_256 (w : BitVec 32) (h : w.toNat < 256) : w.toInt = (w.toNat : ℤ) := by
  rw [BitVec.toInt_eq_toNat_cond]
  split
  · rfl
  · omega

/-- Such a word passes both signed range tests 0 <= w and w <= 255. -/
theorem inRange_of_lt_256 (w : BitVec 32) (h : w.toNat < 256) :
    IntOp.andi (IntOp.cmpi .sge w 0#32) (IntOp.cmpi .sle w 255#32) = 1#1 := by
  have hi := toInt_of_lt_256 w h
  have h1 : IntOp.cmpi .sge w 0#32 = 1#1 := by
    show BitVec.ofBool (decide ((0#32 : BitVec 32).toInt ≤ w.toInt)) = 1#1
    rw [BitVec.toInt_zero, decide_eq_true (by omega)]
    rfl
  have h2 : IntOp.cmpi .sle w 255#32 = 1#1 := by
    show BitVec.ofBool (decide (w.toInt ≤ (255#32 : BitVec 32).toInt)) = 1#1
    have h255 : (255#32 : BitVec 32).toInt = 255 := by decide
    rw [h255, decide_eq_true (by omega)]
    rfl
  rw [h1, h2]
  rfl

/-- The wrap leaves an id below 256 alone. -/
theorem wrapIds_apply (ids : IVec S4 32) (b : Fin 4) (h : (ids (ix1 b)).toNat < 256) :
    wrapIds ids (ix1 b) = ids (ix1 b) := by
  unfold wrapIds
  show Scalar.select (IntOp.cmpi .slt (ids (ix1 b)) 0#32) (IntOp.addi (ids (ix1 b)) 256#32) (ids (ix1 b)) = ids (ix1 b)
  exact Cert.LibGraph.wrap_of_nonneg _ _ (by rw [toInt_of_lt_256 _ h]; omega)

/-- The column of start indices at (b, 0) is the wrapped id of b. -/
theorem idCol_apply' (ids : IVec S4 32) (b : Fin 4) (u : Fin 1) :
    idCol ids (ix2 b u) = wrapIds ids (ix1 b) := by
  unfold idCol
  refine broadcastInDim_apply _ _ _ (ix2 b u) (ix1 b) fun ax => ?_
  match ax with
  | ⟨0, _⟩ => rfl

/-- Under the range hypothesis the column of start indices at (b, 0) is the id of b. -/
theorem idCol_apply (ids : IVec S4 32) (b : Fin 4) (u : Fin 1) (h : (ids (ix1 b)).toNat < 256) :
    idCol ids (ix2 b u) = ids (ix1 b) :=
  (idCol_apply' ids b u).trans (wrapIds_apply ids b h)

/-- An and-fold from the bit 1 over bits that are all 1 is the bit 1, over any finite index set. -/
theorem fold_andi_one {ι : Type} [DecidableEq ι] (t : Finset ι) (f : ι → BitVec 1) (hf : ∀ i, f i = 1#1) :
    t.fold IntOp.andi (1#1 : BitVec 1) f = 1#1 := by
  induction t using Finset.induction_on with
  | empty => rfl
  | insert a t ha ih =>
    rw [Finset.fold_insert ha, ih, hf a]
    rfl

/-- The shape relation the and-reduce over the unit axis is read through. -/
theorem reduces_unit : (⟨2, ![4, 1]⟩ : Shape).Reduces [1] ⟨1, ![4]⟩ := by decide

/-- With every id below 256 the "inside 0..255" bit of every id is 1. -/
theorem idOk_apply (ids : IVec S4 32) (hids : ∀ b : Fin 4, (ids (ix1 b)).toNat < 256) (b : Fin 4) :
    idOk ids (ix1 b) = 1#1 := by
  unfold idOk
  refine (Host.reduce_eq_fold_single IntOp.andi _ _ _ reduces_unit _ (ix1 b)).trans ?_
  have hX : ∀ i : S4x1.Idx,
      (andi (cmpi .sge (idCol ids) (broadcastInDim S4x1 ![] bcast_S_S4x1 (constantI S_ 32 0#32)))
        (cmpi .sle (idCol ids) (broadcastInDim S4x1 ![0, 1] bcast_S1x1_S4x1_0_1
          (broadcastInDim S1x1 ![1] bcast_S1_S1x1_1 (constantI S1 32 255#32))))) i = 1#1 := by
    intro i
    obtain ⟨a, u, rfl⟩ : ∃ (a : Fin 4) (u : Fin 1), i = ix2 a u := ⟨i 0, i 1, eq_ix2 i⟩
    show IntOp.andi (IntOp.cmpi .sge (idCol ids (ix2 a u)) 0#32) (IntOp.cmpi .sle (idCol ids (ix2 a u)) 255#32) = 1#1
    rw [idCol_apply ids a u (hids a)]
    exact inRange_of_lt_256 _ (hids a)
  exact fold_andi_one _ _ fun k => hX (reduces_unit.lift (ix1 b) k)

/-- The looked-up rows at (b, k): the table's row numbered by the id of b, at lane k. -/
theorem takeRows_apply (emb : FVec Ideal S256x1024 .f32) (ids : IVec S4 32)
    (hids : ∀ b : Fin 4, (ids (ix1 b)).toNat < 256) (b : Fin 4) (k : Fin 1024) :
    takeRows (F := Ideal) emb ids (ix2 b k) = emb (ix2 (Cert.LayerNorm.rowOf (ids (ix1 b))) k) := by
  unfold takeRows
  have hc : broadcastInDim S4x1024 ![0] bcast_S4_S4x1024_0 (idOk ids) (ix2 b k) = 1#1 := by
    refine (broadcastInDim_apply _ _ _ (ix2 b k) (ix1 b) fun ax => ?_).trans (idOk_apply ids hids b)
    match ax with
    | ⟨0, _⟩ => rfl
  show Scalar.select (broadcastInDim S4x1024 ![0] bcast_S4_S4x1024_0 (idOk ids) (ix2 b k)) _ _ = _
  rw [hc, select_one]
  refine (Cert.LibGraph.gather_rows_apply (N := 256) (C := 1024) (E := 4) (by decide)
    gather_S256x1024_S4x1_S4x1024_1_0_n_n_0_1_11024_wf emb (idCol ids) b k).trans ?_
  refine congrArg (fun r : Fin 256 => emb (ix2 r k)) (Fin.ext ?_)
  show min (idCol ids (ix2 b (0 : Fin 1))).toInt.toNat (256 - 1) = (Cert.LayerNorm.rowOf (ids (ix1 b))).val
  rw [idCol_apply ids b 0 (hids b), toInt_of_lt_256 _ (hids b), Cert.LayerNorm.rowOf_val (hids b)]
  have := hids b
  omega

/-- The enhanced array at (b, s, k): the features' entry plus the looked-up row's. -/
theorem enhanced_apply (feat : FVec Ideal S4x8192x1024 .f32) (ids : IVec S4 32) (emb : FVec Ideal S256x1024 .f32)
    (hids : ∀ b : Fin 4, (ids (ix1 b)).toNat < 256) (b : Fin 4) (s : Fin 8192) (k : Fin 1024) :
    enhanced (F := Ideal) feat ids emb (ix3 b s k) = Cert.LayerNorm.xAt feat ids emb b s k := by
  unfold enhanced Cert.LayerNorm.xAt
  show feat (ix3 b s k) + _ = feat (ix3 b s k) + _
  exact congrArg (feat (ix3 b s k) + ·)
    ((Cert.LibBatch.broadcastInDim_a1b_acb_apply _ _ b s k).trans
      ((Cert.LibBatch.broadcastInDim_ab_a1b_apply _ _ b (0 : Fin 1) k).trans (takeRows_apply emb ids hids b k)))

end Cert.ReferenceIdeal.RValue

end
-- ==== Proof.RReadRow.lean ====
/-
  The reference's row statistics read at one index, as plain arithmetic of extended reals.

  For an array x over [4, 8192, 1024] and a row (b, s), write r k = x (b, s, k).  The per-row mean is
  (sum of r) / 1024: the host's sum over the last axis starts from the zero word, which is the real 0, the column
  layout [4, 8192] -> [4, 8192, 1] reads the same entry, and the host's quotient is the exact one.  The centred
  array is r k - mean r, the per-row variance is the mean of the squared centred entries, and the normalised entry
  is the centred entry over the square root of variance plus epsilon.  A vector over the last axis repeated over
  rows reads the vector's own entry.
-/
import proofs.«105337_g6193342840941_cont_9to1c4b_532_26_alg».proof.Proof.RTerm
import proofs.«105337_g6193342840941_cont_9to1c4b_532_26_alg».proof.Proof.Spec
import proofs.«105337_g6193342840941_cont_9to1c4b_532_26_alg».proof.Proof.LibBatch

noncomputable section

open scoped BigOperators

namespace Cert.ReferenceIdeal.RValue

open Cert.ReferenceIdeal Idealize.ShloMosaic Idealize.ShloMosaic.ValueIdx Facts₀
open Cert.LayerNorm (mean c1024 eps)

/-- The shape relation the last-axis sum is read through. -/
theorem reduces_last : (⟨3, ![4, 8192, 1024]⟩ : Shape).Reduces [2] ⟨2, ![4, 8192]⟩ := by decide

/-- The per-row mean at (b, s): the plain sum of the row over the word 1024. -/
theorem rowMean_apply (x : FVec Ideal S4x8192x1024 .f32) (b : Fin 4) (s : Fin 8192) :
    rowMean (F := Ideal) x (ix3 b s (0 : Fin 1)) = mean (fun k => x (ix3 b s k)) := by
  unfold rowMean mean
  show Ideal.div _ _ = Ideal.div _ _
  refine congrArg₂ Ideal.div ?_ ?_
  · refine (Cert.LibBatch.broadcastInDim_ab_ab1_apply _ _ b s (0 : Fin 1)).trans ?_
    refine (Cert.LibBatch.hostReduceAdd_last3_apply x _ _ reduces_last b s).trans ?_
    show Ideal.ofBits .f32 0x00000000#32 + _ = _
    rw [Ideal.ofBits_zero_f32, zero_add]
  · exact Cert.LibBatch.broadcastInDim_scalar_apply _ _ _ _

/-- The centred array at (b, s, k): the entry minus its row's mean. -/
theorem centred_apply (x : FVec Ideal S4x8192x1024 .f32) (b : Fin 4) (s : Fin 8192) (k : Fin 1024) :
    centred (F := Ideal) x (ix3 b s k) = x (ix3 b s k) - mean (fun k => x (ix3 b s k)) := by
  unfold centred
  show x (ix3 b s k) - _ = _
  exact congrArg (x (ix3 b s k) - ·)
    ((Cert.LibBatch.broadcastInDim_ab1_abc_apply _ _ b s k).trans (rowMean_apply x b s))

/-- The per-row variance at (b, s): the mean of the squared centred entries. -/
theorem rowVar_apply (x : FVec Ideal S4x8192x1024 .f32) (b : Fin 4) (s : Fin 8192) :
    rowVar (F := Ideal) x (ix3 b s (0 : Fin 1))
      = Ideal.div (∑ k, (x (ix3 b s k) - mean (fun k => x (ix3 b s k))) * (x (ix3 b s k) - mean (fun k => x (ix3 b s k)))) c1024 := by
  unfold rowVar
  refine (rowMean_apply _ b s).trans ?_
  unfold mean
  refine congrArg (Ideal.div · c1024) (Finset.sum_congr rfl fun k _ => ?_)
  show centred (F := Ideal) x (ix3 b s k) * centred (F := Ideal) x (ix3 b s k) = _
  rw [centred_apply]
  rfl

/-- The normalised array at (b, s, d). -/
theorem normed_apply (x : FVec Ideal S4x8192x1024 .f32) (b : Fin 4) (s : Fin 8192) (d : Fin 1024) :
    normed (F := Ideal) x (ix3 b s d)
      = Ideal.div (x (ix3 b s d) - mean (fun k => x (ix3 b s k)))
          (Ideal.sqrt (Ideal.div (∑ k, (x (ix3 b s k) - mean (fun k => x (ix3 b s k))) * (x (ix3 b s k) - mean (fun k => x (ix3 b s k)))) c1024 + eps)) := by
  unfold normed
  show Ideal.div _ _ = Ideal.div _ _
  refine congrArg₂ Ideal.div (centred_apply x b s d) ?_
  refine (Cert.LibBatch.broadcastInDim_ab1_abc_apply _ _ b s d).trans ?_
  show Ideal.sqrt (_ + _) = Ideal.sqrt (_ + _)
  exact congrArg Ideal.sqrt (congrArg₂ (· + ·) (rowVar_apply x b s)
    (Cert.LibBatch.broadcastInDim_scalar_apply _ _ _ _))

/-- The normalised array at (b, s, d), with the row named. -/
theorem normed_apply_row (x : FVec Ideal S4x8192x1024 .f32) (b : Fin 4) (s : Fin 8192) (d : Fin 1024)
    (r : Fin 1024 → EReal) (hr : ∀ k, x (ix3 b s k) = r k) :
    normed (F := Ideal) x (ix3 b s d)
      = Ideal.div (r d - mean r) (Ideal.sqrt (Ideal.div (∑ k, (r k - mean r) * (r k - mean r)) c1024 + eps)) := by
  obtain rfl : (fun k => x (ix3 b s k)) = r := funext hr
  exact normed_apply x b s d

/-- A vector over the last axis repeated over all rows reads, at (b, s, d), the vector at d. -/
theorem overRows_apply (v : FVec Ideal S1024 .f32) (b : Fin 4) (s : Fin 8192) (d : Fin 1024) :
    overRows (F := Ideal) v (ix3 b s d) = v (ix1 d) := by
  unfold overRows
  refine (broadcastInDim_apply _ _ _ (ix3 b s d) (ix3 (0 : Fin 1) (0 : Fin 1) d) fun ax => ?_).trans ?_
  · match ax with
    | ⟨0, _⟩ => rfl
    | ⟨1, _⟩ => rfl
    | ⟨2, _⟩ => rfl
  · refine broadcastInDim_apply _ _ _ (ix3 (0 : Fin 1) (0 : Fin 1) d) (ix1 d) fun ax => ?_
    match ax with
    | ⟨0, _⟩ => rfl

end Cert.ReferenceIdeal.RValue

end
-- ==== Proof.RRead.lean ====
/-
  The reference's result read at one index: entry (b, s, d) is the row (b, s) of the enhanced array — the
  features' row plus the table row of the b-th id — normalised in the arrangement "variance as the mean of the
  squared centred entries, centred entry over the square root of variance plus epsilon", scaled by gamma at d and
  shifted by beta at d.  It needs every id word to hold a number below 256.
-/
import proofs.«105337_g6193342840941_cont_9to1c4b_532_26_alg».proof.Proof.RReadTake
import proofs.«105337_g6193342840941_cont_9to1c4b_532_26_alg».proof.Proof.RReadRow

noncomputable section

open scoped BigOperators

namespace Cert.ReferenceIdeal.RValue

open Cert.ReferenceIdeal Idealize.ShloMosaic Idealize.ShloMosaic.ValueIdx Facts₀

theorem refTerm_apply (feat : FVec Ideal S4x8192x1024 .f32) (ids : IVec S4 32) (emb : FVec Ideal S256x1024 .f32) (γ β : FVec Ideal S1024 .f32)
    (hids : ∀ b : Fin 4, (ids (ix1 b)).toNat < 256) (b : Fin 4) (s : Fin 8192) (d : Fin 1024) :
    refTerm (F := Ideal) feat ids emb γ β (ix3 b s d) = Cert.LayerNorm.rowR (Cert.LayerNorm.xAt feat ids emb b s) (fun k => γ (ix1 k)) (fun k => β (ix1 k)) d := by
  unfold refTerm Cert.LayerNorm.rowR
  show normed (F := Ideal) (enhanced (F := Ideal) feat ids emb) (ix3 b s d) * overRows (F := Ideal) γ (ix3 b s d)
      + overRows (F := Ideal) β (ix3 b s d) = _
  rw [normed_apply_row (enhanced (F := Ideal) feat ids emb) b s d (Cert.LayerNorm.xAt feat ids emb b s)
      (fun k => enhanced_apply feat ids emb hids b s k),
    overRows_apply γ b s d, overRows_apply β b s d]

end Cert.ReferenceIdeal.RValue

end
-- ==== Proof.lean ====
/-
  A fused layer-normalisation kernel against its plain reference, at the exact extended-real reading.

  Both programs form, for batch b and position s, the row x = features(b, s, .) + table(id_b, .) and return
  ((x - mean) / sqrt(var + eps)) * gamma + beta.  The kernel picks the table row through its block index map (the
  id word read unsigned), computes var as mean(x * x) - mean^2 and multiplies by the reciprocal square root; the
  reference looks the row up with a clamped gather (256 added to a negative id, a row of the "not a number" word when the id is
  still outside 0..255), computes var as the mean of the squared centred entries and divides by the square root.
  Under the precondition — every float input finite, every id in 0..255 — the looked-up rows coincide, the rows are
  real, and the two arrangements agree on real rows (RowLaw).  The kernel's frames hold because every block the id
  table selects lies inside the table.
-/
import proofs.«105337_g6193342840941_cont_9to1c4b_532_26_alg».proof.Defs
import proofs.«105337_g6193342840941_cont_9to1c4b_532_26_alg».proof.Proof.Gen.Kernel
import proofs.«105337_g6193342840941_cont_9to1c4b_532_26_alg».proof.Proof.Gen.Kernel.Frame
import proofs.«105337_g6193342840941_cont_9to1c4b_532_26_alg».proof.Proof.Gen.KernelIdeal
import proofs.«105337_g6193342840941_cont_9to1c4b_532_26_alg».proof.Proof.Gen.KernelIdeal.Frame
import proofs.«105337_g6193342840941_cont_9to1c4b_532_26_alg».proof.Proof.Gen.ReferenceIdeal
import proofs.«105337_g6193342840941_cont_9to1c4b_532_26_alg».proof.Proof.Gen.Pre_finite_inputs
import proofs.«105337_g6193342840941_cont_9to1c4b_532_26_alg».proof.Proof.Spec
import proofs.«105337_g6193342840941_cont_9to1c4b_532_26_alg».proof.Proof.RowLaw
import proofs.«105337_g6193342840941_cont_9to1c4b_532_26_alg».proof.Proof.HypsKernel
import proofs.«105337_g6193342840941_cont_9to1c4b_532_26_alg».proof.Proof.HypsKernelIdeal
import proofs.«105337_g6193342840941_cont_9to1c4b_532_26_alg».proof.Proof.KValue
import proofs.«105337_g6193342840941_cont_9to1c4b_532_26_alg».proof.Proof.RRun
import proofs.«105337_g6193342840941_cont_9to1c4b_532_26_alg».proof.Proof.RRead
import Idealize.ShloMosaic.Adequacy
import Idealize.ShloMosaic.Init

noncomputable section

namespace Cert.Proof

open Idealize.ShloMosaic Idealize.ShloMosaic.ValueIdx Idealize.SL.Sem Cert.LibReal

/-- With ids in 0..255 and real features and table entries, the reference's term is the kernel's function: index by
    index the reference's row is the second arrangement of the row x, which on a real row is the first. -/
theorem result_eq (feat : FVec Ideal Cert.LayerNorm.SFeat .f32) (ids : IVec Cert.LayerNorm.SIds 32)
    (emb : FVec Ideal Cert.LayerNorm.STable .f32) (γ β : FVec Ideal Cert.LayerNorm.SVec .f32)
    (hids : ∀ b : Fin 4, (ids (ix1 b)).toNat < 256) (hfeat : ∀ i, ∃ r : ℝ, feat i = (r : EReal))
    (hemb : ∀ i, ∃ r : ℝ, emb i = (r : EReal)) :
    Cert.ReferenceIdeal.RValue.refTerm (F := Ideal) feat ids emb γ β = Cert.LayerNorm.G feat ids emb γ β := by
  funext i
  obtain ⟨b, s, d, rfl⟩ : ∃ (b : Fin 4) (s : Fin 8192) (d : Fin 1024), i = ix3 b s d := ⟨i 0, i 1, i 2, eq_ix3 i⟩
  rw [Cert.ReferenceIdeal.RValue.refTerm_apply feat ids emb γ β hids b s d, Cert.LayerNorm.G_apply]
  exact Cert.LayerNorm.rowR_eq_rowK _ _ _ (fun k => IsReal.add (hfeat _) (hemb _)) d

theorem frame_k : Cert.frame_Kernel := fun m ρ h => Cert.Kernel.Gen.frame m ρ (Cert.Kernel.Hyps.ok_of_pre m h)
theorem frame_ki : Cert.frame_KernelIdeal := fun m ρ h => Cert.KernelIdeal.Gen.frame m ρ (Cert.KernelIdeal.Hyps.ok_of_pre m h)
theorem frame_ri : Cert.frame_ReferenceIdeal := fun m ρ _ =>
  (θ_run Cert.ReferenceIdeal.defs _ _).mono (fun _ h c => (h c).2) (Cert.ReferenceIdeal.RValue.run m ρ)

/-- The kernel's result array is the normalised array (read off its run), the reference's is its own term (its run), and
    on arguments that agree and satisfy the precondition the two are one function. -/
theorem algebraic : Cert.algebraic_KernelIdeal_ReferenceIdeal := by
  intro m ρ m' ρ' hpre hagree
  refine ⟨_, Cert.KernelIdeal.KValue.run m ρ (Cert.KernelIdeal.Hyps.ok_of_pre m hpre)
    (fun c b => Cert.KernelIdeal.Hyps.ids_lt m hpre c b), ?_⟩
  refine (θ_run Cert.ReferenceIdeal.defs _ _).mono (fun _ h c => ⟨(h c).1.trans ?_, (h c).2⟩)
    (Cert.ReferenceIdeal.RValue.run m' ρ')
  rw [(hagree c).1, (hagree c).2.1, (hagree c).2.2.1, (hagree c).2.2.2.1, (hagree c).2.2.2.2]
  exact result_eq _ _ _ _ _ (fun b => Cert.KernelIdeal.Hyps.ids_lt m hpre c b)
    (fun i => Cert.KernelIdeal.Hyps.feat_real m hpre c i) (fun i => Cert.KernelIdeal.Hyps.emb_real m hpre c i)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
